-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x512x768 : Shape := ⟨4, ![4, 8, 512, 768]⟩
abbrev S768x768 : Shape := ⟨2, ![768, 768]⟩
abbrev S768 : Shape := ⟨1, ![768]⟩
abbrev S8x512 : Shape := ⟨2, ![8, 512]⟩
abbrev S_ : Shape := ⟨0, ![]⟩

class Facts : Prop where
  bcast_S_S4x8x512x768 : S_.BroadcastsInDim S4x8x512x768 (![] : Fin 0 → Fin S4x8x512x768.rank)
  reducesTo_S4x8x512x768_S_d0_1_2_3 : S4x8x512x768.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S4x8x512x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : IVec S8x512 32) : IVec S_ 1 :=
  let main_v0 : FVec F S4x8x512x768 .f32 := Host.absf main_arg0
  let main_cst : FVec F S_ .f32 := constant S_ .f32 0x7F800000#32
  let main_v1 : FVec F S4x8x512x768 .f32 := broadcastInDim S4x8x512x768 ![] bcast_S_S4x8x512x768 main_cst
  let main_v2 : IVec S4x8x512x768 1 := cmpf .olt main_v0 main_v1
  let main_c : IVec S_ 1 := constantI S_ 1 1#1
  let main_v3 : IVec S_ 1 := (fun x v => Host.reduce IntOp.andi x v reducesTo_S4x8x512x768_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S4x8x512x768 : Shape := ⟨4, ![4, 8, 512, 768]⟩
abbrev S768x768 : Shape := ⟨2, ![768, 768]⟩
abbrev S768 : Shape := ⟨1, ![768]⟩
abbrev S8x512 : Shape := ⟨2, ![8, 512]⟩
abbrev S768x1536 : Shape := ⟨2, ![768, 1536]⟩
abbrev S1536 : Shape := ⟨1, ![1536]⟩
abbrev S1x1536 : Shape := ⟨2, ![1, 1536]⟩
abbrev S1x768 : Shape := ⟨2, ![1, 768]⟩
abbrev S_ : Shape := ⟨0, ![]⟩
abbrev S1x1x512x768 : Shape := ⟨4, ![1, 1, 512, 768]⟩
abbrev S512x768 : Shape := ⟨2, ![512, 768]⟩
abbrev S512x1536 : Shape := ⟨2, ![512, 1536]⟩
abbrev S1x512 : Shape := ⟨2, ![1, 512]⟩
abbrev S512 : Shape := ⟨1, ![512]⟩
abbrev S512x64 : Shape := ⟨2, ![512, 64]⟩
abbrev S512x512 : Shape := ⟨2, ![512, 512]⟩
abbrev S512x1 : Shape := ⟨2, ![512, 1]⟩
abbrev S512x128 : Shape := ⟨2, ![512, 128]⟩
abbrev S1x1x512x128 : Shape := ⟨4, ![1, 1, 512, 128]⟩

abbrev nBuf : Space → Nat
  | .hbm => 24
  | .vmem => 9
  | .smem => 0
  | _ => 0

abbrev bufTy : (tb : Table) → Fin (tcTables nBuf tb) → BufTy
  | .hbm, ⟨0, _⟩ => ⟨S4x8x512x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S8x512, .i32⟩
  | .hbm, ⟨8, _⟩ => ⟨S768x768, .f32⟩
  | .hbm, ⟨9, _⟩ => ⟨S768x768, .f32⟩
  | .hbm, ⟨10, _⟩ => ⟨S768x768, .f32⟩
  | .hbm, ⟨11, _⟩ => ⟨S768x768, .bf16⟩
  | .hbm, ⟨12, _⟩ => ⟨S768x1536, .f32⟩
  | .hbm, ⟨13, _⟩ => ⟨S1536, .f32⟩
  | .hbm, ⟨14, _⟩ => ⟨S1x1536, .f32⟩
  | .hbm, ⟨15, _⟩ => ⟨S1x768, .f32⟩
  | .hbm, ⟨16, _⟩ => ⟨S8x512, .f32⟩
  | .hbm, ⟨17, _⟩ => ⟨S_, .f32⟩
  | .hbm, ⟨18, _⟩ => ⟨S8x512, .f32⟩
  | .hbm, ⟨19, _⟩ => ⟨S8x512, .f32⟩
  | .hbm, ⟨20, _⟩ => ⟨S_, .f32⟩
  | .hbm, ⟨21, _⟩ => ⟨S8x512, .f32⟩
  | .hbm, ⟨22, _⟩ => ⟨S8x512, .f32⟩
  | .hbm, ⟨23, _⟩ => ⟨S4x8x512x768, .f32⟩
  | .local _ .vmem, ⟨0, _⟩ => ⟨S1x1x512x768, .f32⟩
  | .local _ .vmem, ⟨1, _⟩ => ⟨S1x1x512x768, .f32⟩
  | .local _ .vmem, ⟨2, _⟩ => ⟨S768x1536, .f32⟩
  | .local _ .vmem, ⟨3, _⟩ => ⟨S1x1536, .f32⟩
  | .local _ .vmem, ⟨4, _⟩ => ⟨S768x768, .bf16⟩
  | .local _ .vmem, ⟨5, _⟩ => ⟨S1x768, .f32⟩
  | .local _ .vmem, ⟨6, _⟩ => ⟨S8x512, .f32⟩
  | .local _ .vmem, ⟨7, _⟩ => ⟨S1x1x512x768, .f32⟩
  | .local _ .vmem, ⟨8, _⟩ => ⟨S1x1x512x768, .f32⟩
  | _, _ => ⟨S4x8x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let arg1 : BitVec 32 := BitVec.ofNat 32 (i 1).val
  let v19 : Index := Scalar.indexCast arg1
  let c0_12 : Index := 0#32
  ![v19.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S768x768_S768x768_1_0 : S768x768.Transposes [1, 0] S768x768
  bitsLt_bf16_f32 : FTy.bits .bf16 < FTy.bits .f32
  concatenates_S768x768_S768x768_S768x1536_d1 : Shape.Concatenates [S768x768, S768x768] S768x1536 1
  concatenates_S768_S768_S1536_d0 : Shape.Concatenates [S768, S768] S1536 0
  shapeCasts_S1536_S1x1536 : S1536.ShapeCasts S1x1536
  shapeCasts_S768_S1x768 : S768.ShapeCasts S1x768
  bcast_S_S8x512 : S_.BroadcastsInDim S8x512 (![] : Fin 0 → Fin S8x512.rank)
  inb_S1x1x512x768_S1x1x512x768_0_0_0_0 : ∀ a, (![0, 0, 0, 0] : Fin 4 → Nat) a + S1x1x512x768.size a ≤ S1x1x512x768.size a
  h_S1x1x512x768 : 0 < S1x1x512x768.numel
  shapeCasts_S1x1x512x768_S512x768 : S1x1x512x768.ShapeCasts S512x768
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x768 : S512x1536.Slices ![0, 0] S512x768
  slices_S512x1536_o0_768_S512x768 : S512x1536.Slices ![0, 768] S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  h_S1x512 : 0 < S1x512.numel
  shapeCasts_S1x512_S512 : S1x512.ShapeCasts S512
  shapeCasts_S512_S1x512 : S512.ShapeCasts S1x512
  slices_S512x768_o0_0_S512x64 : S512x768.Slices ![0, 0] S512x64
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  slices_S512x768_o0_64_S512x64 : S512x768.Slices ![0, 64] S512x64
  concatenates_S512x64_S512x64_S512x128_d1 : Shape.Concatenates [S512x64, S512x64] S512x128 1
  inb_S1x1x512x768_S1x1x512x128_0_0_0_0 : ∀ a, (![0, 0, 0, 0] : Fin 4 → Nat) a + S1x1x512x128.size a ≤ S1x1x512x768.size a
  h_S1x1x512x128 : 0 < S1x1x512x128.numel
  shapeCasts_S1x1x512x128_S512x128 : S1x1x512x128.ShapeCasts S512x128
  shapeCasts_S512x128_S1x1x512x128 : S512x128.ShapeCasts S1x1x512x128
  slices_S512x768_o0_128_S512x64 : S512x768.Slices ![0, 128] S512x64
  slices_S512x768_o0_192_S512x64 : S512x768.Slices ![0, 192] S512x64
  inb_S1x1x512x768_S1x1x512x128_0_0_0_128 : ∀ a, (![0, 0, 0, 128] : Fin 4 → Nat) a + S1x1x512x128.size a ≤ S1x1x512x768.size a
  slices_S512x768_o0_256_S512x64 : S512x768.Slices ![0, 256] S512x64
  slices_S512x768_o0_320_S512x64 : S512x768.Slices ![0, 320] S512x64
  inb_S1x1x512x768_S1x1x512x128_0_0_0_256 : ∀ a, (![0, 0, 0, 256] : Fin 4 → Nat) a + S1x1x512x128.size a ≤ S1x1x512x768.size a
  slices_S512x768_o0_384_S512x64 : S512x768.Slices ![0, 384] S512x64
  slices_S512x768_o0_448_S512x64 : S512x768.Slices ![0, 448] S512x64
  inb_S1x1x512x768_S1x1x512x128_0_0_0_384 : ∀ a, (![0, 0, 0, 384] : Fin 4 → Nat) a + S1x1x512x128.size a ≤ S1x1x512x768.size a
  slices_S512x768_o0_512_S512x64 : S512x768.Slices ![0, 512] S512x64
  slices_S512x768_o0_576_S512x64 : S512x768.Slices ![0, 576] S512x64
  inb_S1x1x512x768_S1x1x512x128_0_0_0_512 : ∀ a, (![0, 0, 0, 512] : Fin 4 → Nat) a + S1x1x512x128.size a ≤ S1x1x512x768.size a
  slices_S512x768_o0_640_S512x64 : S512x768.Slices ![0, 640] S512x64
  slices_S512x768_o0_704_S512x64 : S512x768.Slices ![0, 704] S512x64
  inb_S1x1x512x768_S1x1x512x128_0_0_0_640 : ∀ a, (![0, 0, 0, 640] : Fin 4 → Nat) a + S1x1x512x128.size a ≤ S1x1x512x768.size a
  dot_S512x768_S768x1536_S512x1536_1_0_0_1_n_n_wf : DotDims.WF S512x768 S768x1536 S512x1536 [1] [0] [0] [1] [] []
  dot_S512x768_S768x768_S512x768_1_0_0_1_n_n_wf : DotDims.WF S512x768 S768x768 S512x768 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  k0_off1_inb : ∀ i : grid0.Coords, ∀ a, (k0_off1 i) a + S1x512.size a ≤ S8x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x768.size a ≤ S4x8x512x768.size a
  hwx0_0 : ∀ i : grid0.Coords, EltTy.bits .f32 = 32 ∨ (Rect.block (s := S4x8x512x768) S1x1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1536.size a ≤ S768x1536.size a
  hwx0_1 : ∀ i : grid0.Coords, EltTy.bits .f32 = 32 ∨ (Rect.block (s := S768x1536) S768x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S8x512.size a
  hwx0_5 : ∀ i : grid0.Coords, EltTy.bits .f32 = 32 ∨ (Rect.block (s := S8x512) S8x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x768.size a ≤ S4x8x512x768.size a
  hwx0_6 : ∀ i : grid0.Coords, EltTy.bits .f32 = 32 ∨ (Rect.block (s := S4x8x512x768) S1x1x512x768.size (cc0_transform_6 i) (hinb0_6 i)).WholeWords (EltTy.packing .f32)

variable [Facts₀]

def dot_S512x768_S768x1536_S512x1536_1_0_0_1_n_n : DotDims S512x768 S768x1536 S512x1536 where
  lhsContracting := [1]
  rhsContracting := [0]
  lhsNonContracting := [0]
  rhsNonContracting := [1]
  lhsBatch := []
  rhsBatch := []
  wf := dot_S512x768_S768x1536_S512x1536_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1x512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8x512x768 : Shape := ⟨4, ![4, 8, 512, 768]⟩
abbrev S768x768 : Shape := ⟨2, ![768, 768]⟩
abbrev S768 : Shape := ⟨1, ![768]⟩
abbrev S8x512 : Shape := ⟨2, ![8, 512]⟩
abbrev S1x1x1x768 : Shape := ⟨4, ![1, 1, 1, 768]⟩
abbrev S4x8x512x12x64 : Shape := ⟨5, ![4, 8, 512, 12, 64]⟩
abbrev S4x8x12x512x64 : Shape := ⟨5, ![4, 8, 12, 512, 64]⟩
abbrev S4x8x12x512x512 : Shape := ⟨5, ![4, 8, 12, 512, 512]⟩
abbrev S_ : Shape := ⟨0, ![]⟩
abbrev S1x8x1x1x512 : Shape := ⟨5, ![1, 8, 1, 1, 512]⟩
abbrev S4x8x12x512 : Shape := ⟨4, ![4, 8, 12, 512]⟩
abbrev S4x8x12x512x1 : Shape := ⟨5, ![4, 8, 12, 512, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x8x512x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S8x512, .i32⟩
  | .hbm, ⟨8, _⟩ => ⟨S4x8x512x768, .f32⟩
  | .hbm, ⟨9, _⟩ => ⟨S1x1x1x768, .f32⟩
  | .hbm, ⟨10, _⟩ => ⟨S4x8x512x768, .f32⟩
  | .hbm, ⟨11, _⟩ => ⟨S4x8x512x768, .f32⟩
  | .hbm, ⟨12, _⟩ => ⟨S4x8x512x768, .f32⟩
  | .hbm, ⟨13, _⟩ => ⟨S1x1x1x768, .f32⟩
  | .hbm, ⟨14, _⟩ => ⟨S4x8x512x768, .f32⟩
  | .hbm, ⟨15, _⟩ => ⟨S4x8x512x768, .f32⟩
  | .hbm, ⟨16, _⟩ => ⟨S4x8x512x768, .f32⟩
  | .hbm, ⟨17, _⟩ => ⟨S1x1x1x768, .f32⟩
  | .hbm, ⟨18, _⟩ => ⟨S4x8x512x768, .f32⟩
  | .hbm, ⟨19, _⟩ => ⟨S4x8x512x768, .f32⟩
  | .hbm, ⟨20, _⟩ => ⟨S4x8x512x12x64, .f32⟩
  | .hbm, ⟨21, _⟩ => ⟨S4x8x12x512x64, .f32⟩
  | .hbm, ⟨22, _⟩ => ⟨S4x8x512x12x64, .f32⟩
  | .hbm, ⟨23, _⟩ => ⟨S4x8x12x512x64, .f32⟩
  | .hbm, ⟨24, _⟩ => ⟨S4x8x512x12x64, .f32⟩
  | .hbm, ⟨25, _⟩ => ⟨S4x8x12x512x64, .f32⟩
  | .hbm, ⟨26, _⟩ => ⟨S4x8x12x512x512, .f32⟩
  | .hbm, ⟨27, _⟩ => ⟨S_, .f32⟩
  | .hbm, ⟨28, _⟩ => ⟨S4x8x12x512x512, .f32⟩
  | .hbm, ⟨29, _⟩ => ⟨S4x8x12x512x512, .f32⟩
  | .hbm, ⟨30, _⟩ => ⟨S8x512, .f32⟩
  | .hbm, ⟨31, _⟩ => ⟨S1x8x1x1x512, .f32⟩
  | .hbm, ⟨32, _⟩ => ⟨S_, .f32⟩
  | .hbm, ⟨33, _⟩ => ⟨S1x8x1x1x512, .f32⟩
  | .hbm, ⟨34, _⟩ => ⟨S1x8x1x1x512, .f32⟩
  | .hbm, ⟨35, _⟩ => ⟨S_, .f32⟩
  | .hbm, ⟨36, _⟩ => ⟨S1x8x1x1x512, .f32⟩
  | .hbm, ⟨37, _⟩ => ⟨S1x8x1x1x512, .f32⟩
  | .hbm, ⟨38, _⟩ => ⟨S4x8x12x512x512, .f32⟩
  | .hbm, ⟨39, _⟩ => ⟨S4x8x12x512x512, .f32⟩
  | .hbm, ⟨40, _⟩ => ⟨S_, .f32⟩
  | .hbm, ⟨41, _⟩ => ⟨S4x8x12x512, .f32⟩
  | .hbm, ⟨42, _⟩ => ⟨S_, .f32⟩
  | .hbm, ⟨43, _⟩ => ⟨S4x8x12x512, .f32⟩
  | .hbm, ⟨44, _⟩ => ⟨S4x8x12x512, .f32⟩
  | .hbm, ⟨45, _⟩ => ⟨S4x8x12x512x1, .f32⟩
  | .hbm, ⟨46, _⟩ => ⟨S4x8x12x512x512, .f32⟩
  | .hbm, ⟨47, _⟩ => ⟨S4x8x12x512x512, .f32⟩
  | .hbm, ⟨48, _⟩ => ⟨S4x8x12x512x512, .f32⟩
  | .hbm, ⟨49, _⟩ => ⟨S_, .f32⟩
  | .hbm, ⟨50, _⟩ => ⟨S4x8x12x512, .f32⟩
  | .hbm, ⟨51, _⟩ => ⟨S4x8x12x512x1, .f32⟩
  | .hbm, ⟨52, _⟩ => ⟨S4x8x12x512x512, .f32⟩
  | .hbm, ⟨53, _⟩ => ⟨S4x8x12x512x512, .f32⟩
  | .hbm, ⟨54, _⟩ => ⟨S4x8x12x512x64, .f32⟩
  | .hbm, ⟨55, _⟩ => ⟨S4x8x512x12x64, .f32⟩
  | .hbm, ⟨56, _⟩ => ⟨S4x8x512x768, .f32⟩
  | _, _ => ⟨S4x8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  bcast_S768_S1x1x1x768_3 : S768.BroadcastsInDim S1x1x1x768 (![3] : Fin 1 → Fin S1x1x1x768.rank)
  bcast_S1x1x1x768_S4x8x512x768_0_1_2_3 : S1x1x1x768.BroadcastsInDim S4x8x512x768 (![0, 1, 2, 3] : Fin 4 → Fin S4x8x512x768.rank)
  shapeCasts_S4x8x512x768_S4x8x512x12x64 : S4x8x512x768.ShapeCasts S4x8x512x12x64
  transposes_S4x8x512x12x64_S4x8x12x512x64_0_1_3_2_4 : S4x8x512x12x64.Transposes [0, 1, 3, 2, 4] S4x8x12x512x64
  bcast_S_S4x8x12x512x512 : S_.BroadcastsInDim S4x8x12x512x512 (![] : Fin 0 → Fin S4x8x12x512x512.rank)
  bcast_S8x512_S1x8x1x1x512_1_4 : S8x512.BroadcastsInDim S1x8x1x1x512 (![1, 4] : Fin 2 → Fin S1x8x1x1x512.rank)
  bcast_S_S1x8x1x1x512 : S_.BroadcastsInDim S1x8x1x1x512 (![] : Fin 0 → Fin S1x8x1x1x512.rank)
  bcast_S1x8x1x1x512_S4x8x12x512x512_0_1_2_3_4 : S1x8x1x1x512.BroadcastsInDim S4x8x12x512x512 (![0, 1, 2, 3, 4] : Fin 5 → Fin S4x8x12x512x512.rank)
  reducesTo_S4x8x12x512x512_S4x8x12x512_d4 : S4x8x12x512x512.ReducesTo [4] S4x8x12x512
  h_S_ : 0 < S_.numel
  bcast_S_S4x8x12x512 : S_.BroadcastsInDim S4x8x12x512 (![] : Fin 0 → Fin S4x8x12x512.rank)
  bcast_S4x8x12x512_S4x8x12x512x1_0_1_2_3 : S4x8x12x512.BroadcastsInDim S4x8x12x512x1 (![0, 1, 2, 3] : Fin 4 → Fin S4x8x12x512x1.rank)
  bcast_S4x8x12x512x1_S4x8x12x512x512_0_1_2_3_4 : S4x8x12x512x1.BroadcastsInDim S4x8x12x512x512 (![0, 1, 2, 3, 4] : Fin 5 → Fin S4x8x12x512x512.rank)
  transposes_S4x8x12x512x64_S4x8x512x12x64_0_1_3_2_4 : S4x8x12x512x64.Transposes [0, 1, 3, 2, 4] S4x8x512x12x64
  shapeCasts_S4x8x512x12x64_S4x8x512x768 : S4x8x512x12x64.ShapeCasts S4x8x512x768
  dot_S4x8x512x768_S768x768_S4x8x512x768_3_1_012_0_n_n_wf : DotDims.WF S4x8x512x768 S768x768 S4x8x512x768 [3] [1] [0, 1, 2] [0] [] []
  dot_S4x8x12x512x64_S4x8x12x512x64_S4x8x12x512x512_4_4_3_3_012_012_wf : DotDims.WF S4x8x12x512x64 S4x8x12x512x64 S4x8x12x512x512 [4] [4] [3] [3] [0, 1, 2] [0, 1, 2]
  dot_S4x8x12x512x512_S4x8x12x512x64_S4x8x12x512x64_4_3_3_4_012_012_wf : DotDims.WF S4x8x12x512x512 S4x8x12x512x64 S4x8x12x512x64 [4] [3] [3] [4] [0, 1, 2] [0, 1, 2]

variable [Facts₀]

def dot_S4x8x512x768_S768x768_S4x8x512x768_3_1_012_0_n_n : DotDims S4x8x512x768 S768x768 S4x8x512x768 where
  lhsContracting := [3]
  rhsContracting := [1]
  lhsNonContracting := [0, 1, 2]
  rhsNonContracting := [0]
  lhsBatch := []
  rhsBatch := []
  wf := dot_S4x8x512x768_S768x768_S4x8x512x768_3_1_012_0_n_n_wf
def dot_S4x8x12x512x64_S4x8x12x512x64_S4x8x12x512x512_4_4_3_3_012_012 : DotDims S4x8x12x512x64 S4x8x12x512x64 S4x8x12x512x512 where
  lhsContracting := [4]
  rhsContracting := [4]
  lhsNonContracting := [3]
  rhsNonContracting := [3]
  lhsBatch := [0, 1, 2]
  rhsBatch := [0, 1, 2]
  wf := dot_S4x8x12x512x64_S4x8x12x512x64_S4x8x12x512x512_4_4_3_3_012_012_wf
def dot_S4x8x12x512x512_S4x8x12x512x64_S4x8x12x512x64_4_3_3_4_012_012 : DotDims S4x8x12x512x512 S4x8x12x512x64 S4x8x12x512x64 where
  lhsContracting := [4]
  rhsContracting := [3]
  lhsNonContracting := [3]
  rhsNonContracting := [4]
  lhsBatch := [0, 1, 2]
  rhsBatch := [0, 1, 2]
  wf := dot_S4x8x12x512x512_S4x8x12x512x64_S4x8x12x512x64_4_3_3_4_012_012_wf

class Facts : Prop extends Facts₀ where

variable [Facts]
-- ==== Proof.KernelHead.lean ====
/-
  One head of the kernel's body as the body spells it, and the six stored pairs of heads.

  A head takes the 64 columns at its offset of the query, key and value slabs: the inner products of the query rows
  with the key rows, times 1/8, plus the bias row; the row-wise softmax (row maxima from minus infinity, compared with
  minus infinity once more; exponentials; row sums; quotient); and the product with the value columns. Each store
  writes two consecutive heads side by side. The body's named payloads are these terms.
-/
import proofs.«129219_j87170656239755_2_alg».proof.Proof.Gen.KernelIdeal.Skeleton

noncomputable section

namespace Cert.KHead

open Cert.KernelIdeal Cert.KernelIdeal.Gen Idealize.ShloMosaic

variable {F : FTy → Type} [FloatOps F]

/-- The scores of the head at column offset `off`: query columns against key columns, times 1/8, plus the bias row. -/
def scoresOf (Q K : FVec F S512x768 .f32) (B : FVec F S1x512 .f32) (off : ℕ) (hs : S512x768.Slices ![0, off] S512x64) :
    FVec F S512x512 .f32 :=
  addf (mulf (matmul dot_S512x64_S512x64_S512x512_1_1_0_0_n_n (some .fp32) (extractStridedSlice S512x64 ![0, off] Q hs)
      (extractStridedSlice S512x64 ![0, off] K hs) (constant S512x512 .f32 0x00000000#32))
    (broadcast S512x512 (Scalar.ofBits .f32 0x3E000000#32))) (broadcastTo S512x512 B broadcasts_S1x512_S512x512)

/-- The exponentials of the scores minus their row maxima. -/
def expOf (S : FVec F S512x512 .f32) : FVec F S512x512 .f32 :=
  exp (subf S (broadcastTo S512x512 (shapeCast S512x1 (maximumf (broadcast S512 (Scalar.ofBits .f32 0xFF800000#32))
    (multiReduction .maximumf [1] S512 S 0xFF800000#32 reduces_S512x512_S512 (.inl rfl) rfl)) shapeCasts_S512_S512x1)
    broadcasts_S512x1_S512x512))

/-- One head. -/
def hd (Q K V : FVec F S512x768 .f32) (B : FVec F S1x512 .f32) (off : ℕ) (hs : S512x768.Slices ![0, off] S512x64) :
    FVec F S512x64 .f32 :=
  matmul dot_S512x512_S512x64_S512x64_1_0_0_1_n_n none
    (truncf .bf16 (divf (expOf (scoresOf Q K B off hs)) (broadcastTo S512x512 (shapeCast S512x1
      (multiReduction .add [1] S512 (expOf (scoresOf Q K B off hs)) 0x00000000#32 reduces_S512x512_S512 (.inl rfl) rfl)
      shapeCasts_S512_S512x1) broadcasts_S512x1_S512x512)) bitsLt_bf16_f32)
    (truncf .bf16 (extractStridedSlice S512x64 ![0, off] V hs) bitsLt_bf16_f32)
    (constant S512x64 .f32 0x00000000#32)

/-- Two heads side by side, as a block of the output. -/
def pairOf (Q K V : FVec F S512x768 .f32) (B : FVec F S1x512 .f32) (o0 o1 : ℕ) (h0 : S512x768.Slices ![0, o0] S512x64)
    (h1 : S512x768.Slices ![0, o1] S512x64) : FVec F S1x1x512x128 .f32 :=
  shapeCast S1x1x512x128 (concatenate S512x128 1 [⟨S512x64, hd Q K V B o0 h0⟩, ⟨S512x64, hd Q K V B o1 h1⟩]
    concatenates_S512x64_S512x64_S512x128_d1) shapeCasts_S512x128_S1x1x512x128

theorem pair0 (x0 : Vec F S1x1x512x768 .f32) (x1 : Vec F S768x1536 .f32) (x2 : Vec F S1x1536 .f32) (x3 : Vec F S768x768 .bf16)
    (x4 : Vec F S1x768 .f32) (xb : Vec F S1x512 .f32) :
    k0_pay10 (k0_pay4 x0 x1 x2) (k0_pay5 x0 x1 x2) (k0_pay6 x0 x3 x4) (k0_pay7 xb) (k0_pay8 x0 x3 x4) (k0_pay9 x0 x1 x2 xb)
      = pairOf (k0_pay4 x0 x1 x2) (k0_pay5 x0 x1 x2) (k0_pay6 x0 x3 x4) (k0_pay7 xb) 0 64 slices_S512x768_o0_0_S512x64
          slices_S512x768_o0_64_S512x64 := rfl

theorem pair1 (Q K V : FVec F S512x768 .f32) (B : FVec F S1x512 .f32) :
    k0_pay15 Q K V B (k0_pay11 V) (k0_pay12 Q K B) (k0_pay13 Q K B) k0_pay14
      = pairOf Q K V B 128 192 slices_S512x768_o0_128_S512x64 slices_S512x768_o0_192_S512x64 := rfl

theorem pair2 (Q K V : FVec F S512x768 .f32) (B : FVec F S1x512 .f32) :
    k0_pay19 Q K V B (k0_pay16 V) (k0_pay17 Q K) (k0_pay18 B)
      = pairOf Q K V B 256 320 slices_S512x768_o0_256_S512x64 slices_S512x768_o0_320_S512x64 := rfl

theorem pair3 (Q K V : FVec F S512x768 .f32) (B : FVec F S1x512 .f32) :
    k0_pay23 Q K V B (k0_pay20 Q) (k0_pay21 K) (k0_pay22 V) (constant S512x512 .f32 0x00000000#32)
      = pairOf Q K V B 384 448 slices_S512x768_o0_384_S512x64 slices_S512x768_o0_448_S512x64 := rfl

theorem pair4 (Q K V : FVec F S512x768 .f32) (B : FVec F S1x512 .f32) :
    k0_pay25 (k0_pay24 Q K V B)
      = pairOf Q K V B 512 576 slices_S512x768_o0_512_S512x64 slices_S512x768_o0_576_S512x64 := rfl

theorem pair5 (Q K V : FVec F S512x768 .f32) (B : FVec F S1x512 .f32) :
    k0_pay1 (k0_pay26 Q K V B) (k0_pay27 V) (k0_pay28 Q K B) (constant S512x64 .f32 0x00000000#32)
      = pairOf Q K V B 640 704 slices_S512x768_o0_640_S512x64 slices_S512x768_o0_704_S512x64 := rfl

end Cert.KHead

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.LibRowSoftmax.lean ====
/-
  Row-wise pieces of a dense network on the extended reals, entry by entry, generic in the sizes: a bias
  row added to every row of a matrix, that sum rectified, and the logarithm of the row-wise softmax —
  every entry minus its row's largest entry, minus the logarithm of the sum over the row of the
  exponentials of those differences.

  Each reads entry (p, q) of its result from row p of its matrix operand only, so computed on a block
  of rows it gives the rows of what it gives on the whole array (the block-of-rows laws). The vector
  unit's spelling (identity casts, a one-row broadcast, lane reductions from minus infinity and from zero
  kept as columns and broadcast back) and the host's spelling (two-step bias broadcasts, a maximum with a
  broadcast zero, reductions with a maximum and an add body, the row maximum taken once more against
  minus infinity) of each piece are that one function.
-/
import proofs.«129219_j87170656239755_2_alg».proof.Proof.LibDense
import proofs.«129219_j87170656239755_2_alg».proof.Proof.LibColumn

noncomputable section

open scoped BigOperators

namespace Cert.Gcn

open Cert.Dense Idealize.ShloMosaic Idealize.ShloMosaic.ValueIdx

variable {M M' N : ℕ}

/-- A one-row matrix added to every row of a matrix. -/
def addRow (A : Mat M N) (b : Mat 1 N) : Mat M N := fun i => A i + b (ix2 (0 : Fin 1) (i 1))

/-- A bias row added to every row, then the rectifier. -/
def biasRelu (A : Mat M N) (b : Mat 1 N) : Mat M N := relu (addRow A b)

/-- The word of single-precision minus infinity, read on the extended reals. -/
def negInf : EReal := Ideal.ofBits .f32 0xFF800000#32

/-- The largest entry of row p, folded from minus infinity. -/
def rowMax (Y : Mat M N) (p : Fin M) : EReal :=
  (Finset.univ : Finset (Fin N)).fold max negInf (fun k => Y (ix2 p k))

/-- The logarithm of the row-wise softmax: (y − m) − log Σ exp (y − m), m the row's largest entry. -/
def logSoftmax (Y : Mat M N) : Mat M N := fun i =>
  (Y i - rowMax Y (i 0)) - Ideal.log (∑ k : Fin N, Ideal.exp (Y (ix2 (i 0) k) - rowMax Y (i 0)))

/-- A bias row added to every row, then the logarithm of the row-wise softmax. -/
def biasLogSoftmax (A : Mat M N) (b : Mat 1 N) : Mat M N := logSoftmax (addRow A b)

/-- A vector laid out as the one row of a one-row matrix. -/
def rowOf (b : Row N) : Mat 1 N := fun i => b (ix1 (i 1))

theorem logSoftmax_apply (Y : Mat M N) (p : Fin M) (q : Fin N) :
    logSoftmax Y (ix2 p q)
      = (Y (ix2 p q) - rowMax Y p) - Ideal.log (∑ k : Fin N, Ideal.exp (Y (ix2 p k) - rowMax Y p)) := rfl

/-! ## On a block of rows -/

theorem addRow_rows (A : Mat M' N) (blk : Mat M N) (b : Mat 1 N) (ρ : Fin M → Fin M')
    (h : ∀ p k, blk (ix2 p k) = A (ix2 (ρ p) k)) (p : Fin M) (q : Fin N) :
    addRow blk b (ix2 p q) = addRow A b (ix2 (ρ p) q) := by
  show blk (ix2 p q) + b (ix2 (0 : Fin 1) q) = A (ix2 (ρ p) q) + b (ix2 (0 : Fin 1) q)
  rw [h p q]

theorem biasRelu_rows (A : Mat M' N) (blk : Mat M N) (b : Mat 1 N) (ρ : Fin M → Fin M')
    (h : ∀ p k, blk (ix2 p k) = A (ix2 (ρ p) k)) (p : Fin M) (q : Fin N) :
    biasRelu blk b (ix2 p q) = biasRelu A b (ix2 (ρ p) q) := by
  show max (addRow blk b (ix2 p q)) 0 = max (addRow A b (ix2 (ρ p) q)) 0
  rw [addRow_rows A blk b ρ h p q]

theorem rowMax_rows (Y : Mat M' N) (blk : Mat M N) (ρ : Fin M → Fin M')
    (h : ∀ p k, blk (ix2 p k) = Y (ix2 (ρ p) k)) (p : Fin M) : rowMax blk p = rowMax Y (ρ p) := by
  unfold rowMax
  exact congrArg (fun f => Finset.fold max negInf f (Finset.univ : Finset (Fin N))) (funext fun k => h p k)

theorem logSoftmax_rows (Y : Mat M' N) (blk : Mat M N) (ρ : Fin M → Fin M')
    (h : ∀ p k, blk (ix2 p k) = Y (ix2 (ρ p) k)) (p : Fin M) (q : Fin N) :
    logSoftmax blk (ix2 p q) = logSoftmax Y (ix2 (ρ p) q) := by
  rw [logSoftmax_apply, logSoftmax_apply, rowMax_rows Y blk ρ h p, h p q]
  exact congrArg (fun s => (Y (ix2 (ρ p) q) - rowMax Y (ρ p)) - Ideal.log s)
    (Finset.sum_congr rfl fun k _ => by rw [h p k])

theorem biasLogSoftmax_rows (A : Mat M' N) (blk : Mat M N) (b : Mat 1 N) (ρ : Fin M → Fin M')
    (h : ∀ p k, blk (ix2 p k) = A (ix2 (ρ p) k)) (p : Fin M) (q : Fin N) :
    biasLogSoftmax blk b (ix2 p q) = biasLogSoftmax A b (ix2 (ρ p) q) :=
  logSoftmax_rows (addRow A b) (addRow blk b) ρ (fun p k => addRow_rows A blk b ρ h p k) p q

/-! ## As the vector unit spells them -/

/-- The block plus the bias row broadcast over its rows (the casts to the same shape are the identity). -/
theorem addf_cast_broadcastTo (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩) :
    addf (shapeCast ⟨2, ![M, N]⟩ x0 h0) (broadcastTo ⟨2, ![M, N]⟩ (shapeCast ⟨2, ![1, N]⟩ x1 h1) hb) = addRow x0 x1 := by
  rw [shapeCast_self, shapeCast_self]
  funext i
  obtain ⟨p, q, rfl⟩ : ∃ (p : Fin M) (q : Fin N), i = ix2 p q := ⟨i 0, i 1, eq_ix2 i⟩
  show x0 (ix2 p q) + broadcastTo ⟨2, ![M, N]⟩ x1 hb (ix2 p q) = x0 (ix2 p q) + x1 (ix2 (0 : Fin 1) q)
  rw [broadcastTo_1b_ab_apply]

/-- Bias, then the maximum with a splat of the zero word. -/
theorem kernel_biasRelu (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ x0 h0) (broadcastTo ⟨2, ![M, N]⟩ (shapeCast ⟨2, ![1, N]⟩ x1 h1) hb))
        (broadcast ⟨2, ![M, N]⟩ (Scalar.ofBits (F := Ideal) .f32 0x00000000#32))
      = biasRelu x0 x1 := by
  rw [addf_cast_broadcastTo]
  exact maximumf_splat_zero _

/-- The reduced index p with column k put back is (p, k). -/
theorem lift_axis1 (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A lane maximum from minus infinity, kept as a vector over the rows, is the row's largest entry. -/
theorem reduce_max_row (Y : FVec Ideal ⟨2, ![M, N]⟩ .f32) (hr : (⟨2, ![M, N]⟩ : Shape).Reduces [1] (⟨1, ![M]⟩ : Shape))
    (hφ : FKind.Formats .f32) (hacc : (0xFF800000#32 : BitVec 32) = FKind.maximumf.neutral .f32 hφ) (p : Fin M) :
    multiReduction .maximumf [1] ⟨1, ![M]⟩ Y 0xFF800000#32 hr hφ hacc (ix1 p) = rowMax Y p := by
  refine (Ideal.multiReduction_maximumf_single Y 0xFF800000#32 hr hφ hacc (ix1 p)).trans ?_
  show Finset.fold max negInf (Y ∘ hr.lift (ix1 p)) (Finset.univ : Finset (Fin N)) = _
  exact congrArg (fun f => Finset.fold max negInf f (Finset.univ : Finset (Fin N)))
    (funext fun k => congrArg Y (lift_axis1 hr p k))

/-- A lane sum from zero, kept as a vector over the rows, is the sum over the row. -/
theorem reduce_add_row (Z : FVec Ideal ⟨2, ![M, N]⟩ .f32) (hr : (⟨2, ![M, N]⟩ : Shape).Reduces [1] (⟨1, ![M]⟩ : Shape))
    (hφ : FKind.Formats .f32) (hacc : (0x00000000#32 : BitVec 32) = FKind.add.neutral .f32 hφ) (p : Fin M) :
    multiReduction .add [1] ⟨1, ![M]⟩ Z 0x00000000#32 hr hφ hacc (ix1 p) = ∑ k : Fin N, Z (ix2 p k) := by
  refine (Ideal.multiReduction_add_single Z 0x00000000#32 hr hφ hacc (ix1 p)).trans ?_
  show ∑ k : Fin N, Z (hr.lift (ix1 p) k) = _
  exact Finset.sum_congr rfl fun k _ => congrArg Z (lift_axis1 hr p k)

/-- A column broadcast along the rows' second axis, read at (p, q): the column's entry p. -/
theorem broadcastTo_a1_ab_apply {α : Type} (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- The vector unit's logarithm of the row-wise softmax: the row maxima and the row sums are lane reductions kept as
    columns and broadcast back over the row. -/
theorem kernel_logSoftmax (Y : FVec Ideal ⟨2, ![M, N]⟩ .f32) (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩) :
    subf (subf Y (broadcastTo ⟨2, ![M, N]⟩ (shapeCast ⟨2, ![M, 1]⟩ (multiReduction .maximumf [1] ⟨1, ![M]⟩ Y 0xFF800000#32 hr hφ hmax) hc) hb))
      (broadcastTo ⟨2, ![M, N]⟩ (log (shapeCast ⟨2, ![M, 1]⟩ (multiReduction .add [1] ⟨1, ![M]⟩
        (exp (subf Y (broadcastTo ⟨2, ![M, N]⟩ (shapeCast ⟨2, ![M, 1]⟩ (multiReduction .maximumf [1] ⟨1, ![M]⟩ Y 0xFF800000#32 hr hφ hmax) hc) hb)))
        0x00000000#32 hr hφ hadd) hc)) hb)
      = logSoftmax Y := by
  have hm : ∀ (p : Fin M) (q : Fin N),
      broadcastTo ⟨2, ![M, N]⟩ (shapeCast ⟨2, ![M, 1]⟩ (multiReduction .maximumf [1] ⟨1, ![M]⟩ Y 0xFF800000#32 hr hφ hmax) hc) hb (ix2 p q)
        = rowMax Y p := fun p q => by
    rw [broadcastTo_a1_ab_apply, Cert.Layout.cast_vec_col_apply, reduce_max_row]
  funext i
  obtain ⟨p, q, rfl⟩ : ∃ (p : Fin M) (q : Fin N), i = ix2 p q := ⟨i 0, i 1, eq_ix2 i⟩
  rw [logSoftmax_apply, subf_apply, subf_apply, hm p q, broadcastTo_a1_ab_apply]
  show (Y (ix2 p q) - rowMax Y p) - Ideal.log (shapeCast ⟨2, ![M, 1]⟩ (multiReduction .add [1] ⟨1, ![M]⟩
        (exp (subf Y (broadcastTo ⟨2, ![M, N]⟩ (shapeCast ⟨2, ![M, 1]⟩ (multiReduction .maximumf [1] ⟨1, ![M]⟩ Y 0xFF800000#32 hr hφ hmax) hc) hb)))
        0x00000000#32 hr hφ hadd) hc (ix2 p (0 : Fin 1))) = _
  rw [Cert.Layout.cast_vec_col_apply, reduce_add_row]
  refine congrArg (fun s => (Y (ix2 p q) - rowMax Y p) - Ideal.log s) (Finset.sum_congr rfl fun k _ => ?_)
  show Ideal.exp (Y (ix2 p k) - broadcastTo ⟨2, ![M, N]⟩ (shapeCast ⟨2, ![M, 1]⟩ (multiReduction .maximumf [1] ⟨1, ![M]⟩ Y 0xFF800000#32 hr hφ hmax) hc) hb (ix2 p k)) = _
  rw [hm p k]

/-- Bias, then the vector unit's logarithm of the row-wise softmax. -/
theorem kernel_biasLogSoftmax (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩)
    (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb2 : (⟨2, ![M, 1]⟩ : Shape).Broadcasts ⟨2, ![M, N]⟩) :
    subf (subf (addf (shapeCast ⟨2, ![M, N]⟩ x0 h0) (broadcastTo ⟨2, ![M, N]⟩ (shapeCast ⟨2, ![1, N]⟩ x1 h1) hb)) (broadcastTo ⟨2, ![M, N]⟩ (shapeCast ⟨2, ![M, 1]⟩ (multiReduction .maximumf [1] ⟨1, ![M]⟩ (addf (shapeCast ⟨2, ![M, N]⟩ x0 h0) (broadcastTo ⟨2, ![M, N]⟩ (shapeCast ⟨2, ![1, N]⟩ x1 h1) hb)) 0xFF800000#32 hr hφ hmax) hc) hb2))
      (broadcastTo ⟨2, ![M, N]⟩ (log (shapeCast ⟨2, ![M, 1]⟩ (multiReduction .add [1] ⟨1, ![M]⟩
        (exp (subf (addf (shapeCast ⟨2, ![M, N]⟩ x0 h0) (broadcastTo ⟨2, ![M, N]⟩ (shapeCast ⟨2, ![1, N]⟩ x1 h1) hb)) (broadcastTo ⟨2, ![M, N]⟩ (shapeCast ⟨2, ![M, 1]⟩ (multiReduction .maximumf [1] ⟨1, ![M]⟩ (addf (shapeCast ⟨2, ![M, N]⟩ x0 h0) (broadcastTo ⟨2, ![M, N]⟩ (shapeCast ⟨2, ![1, N]⟩ x1 h1) hb)) 0xFF800000#32 hr hφ hmax) hc) hb2)))
        0x00000000#32 hr hφ hadd) hc)) hb2)
      = biasLogSoftmax x0 x1 := by
  rw [addf_cast_broadcastTo]
  exact kernel_logSoftmax _ hr hφ hmax hadd hc hb2

/-! ## As the host spells them -/

/-- A vector reshaped to one row is its one-row layout. -/
theorem shapeCast_row (b : Row N) (h : (⟨1, ![N]⟩ : Shape).ShapeCasts ⟨2, ![1, N]⟩) :
    shapeCast ⟨2, ![1, N]⟩ b h = rowOf b := by
  funext i
  obtain ⟨r, q, rfl⟩ : ∃ (r : Fin 1) (q : Fin N), i = ix2 r q := ⟨i 0, i 1, eq_ix2 i⟩
  obtain rfl : r = 0 := Subsingleton.elim _ _
  exact Cert.Layout.cast_vec_row_apply b h q

/-- The host's bias: the vector broadcast to one row and then over the rows, added. -/
theorem host_addRow (A : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf A (broadcastInDim ⟨2, ![M, N]⟩ ![0, 1] h2 (broadcastInDim ⟨2, ![1, N]⟩ ![1] h1 b)) = addRow A (rowOf b) := by
  funext i
  obtain ⟨p, q, rfl⟩ : ∃ (p : Fin M) (q : Fin N), i = ix2 p q := ⟨i 0, i 1, eq_ix2 i⟩
  show A (ix2 p q) + broadcastInDim ⟨2, ![M, N]⟩ ![0, 1] h2 (broadcastInDim ⟨2, ![1, N]⟩ ![1] h1 b) (ix2 p q) = A (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The host's bias and rectifier. -/
theorem host_biasRelu (A : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf A (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = biasRelu A (rowOf b) := by
  rw [host_addRow]
  exact maximumf_broadcastInDim_zero _ h0

/-- The maximum with minus infinity changes nothing. -/
theorem max_negInf (z : EReal) : max negInf z = z := by
  show max (Ideal.ofBits .f32 0xFF800000#32) z = z
  simp [Ideal.ofBits, Ideal.ieee]

/-- A column broadcast over the rows' second axis by the host, read at (p, q): the column's entry p. -/
theorem broadcastInDim_a1_ab_apply {α : Type} (v : (⟨2, ![M, 1]⟩ : Shape).Idx → α)
    (h : (⟨2, ![M, 1]⟩ : Shape).BroadcastsInDim ⟨2, ![M, N]⟩ ![0, 1]) (p : Fin M) (q : Fin N) :
    broadcastInDim ⟨2, ![M, N]⟩ ![0, 1] h v (ix2 p q) = v (ix2 p (0 : Fin 1)) :=
  broadcastInDim_apply ![0, 1] h v (ix2 p q) (ix2 p (0 : Fin 1)) (fun ax => by
    match ax with
    | ⟨0, _⟩ =>
      show p.val = if M = 1 then 0 else p.val
      split
      · have := p.isLt; omega
      · rfl
    | ⟨1, _⟩ =>
      show 0 = if (1 : ℕ) = 1 then 0 else q.val
      rw [if_pos rfl])

/-- The host's row maximum from minus infinity, at row p: the row's largest entry. -/
theorem host_reduce_max_row (Y : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel) (p : Fin M) :
    Host.reduce FloatOps.maximumf Y (constant (F := Ideal) ⟨0, ![]⟩ .f32 0xFF800000#32) hrt hu (ix1 p) = rowMax Y p := by
  rw [Host.reduce_eq_fold_single FloatOps.maximumf Y _ hrt hr hu]
  show Finset.fold max negInf (Y ∘ hr.lift (ix1 p)) (Finset.univ : Finset (Fin N)) = _
  exact congrArg (fun f => Finset.fold max negInf f (Finset.univ : Finset (Fin N)))
    (funext fun k => congrArg Y (lift_axis1 hr p k))

/-- The host's row sum from zero, at row p. -/
theorem host_reduce_add_row (Z : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel) (p : Fin M) :
    Host.reduceAdd Z (constant (F := Ideal) ⟨0, ![]⟩ .f32 0x00000000#32) hrt hu (ix1 p) = ∑ k : Fin N, Z (ix2 p k) := by
  simp only [Host.reduceAdd, Ideal.hostReduceAdd_def]
  rw [Ideal.hostReduceAdd_single hrt hr]
  show Ideal.ofBits .f32 0x00000000#32 + ∑ k : Fin N, Z (hr.lift (ix1 p) k) = _
  rw [Ideal.ofBits_zero_f32, zero_add]
  exact Finset.sum_congr rfl fun k _ => congrArg Z (lift_axis1 hr p k)

/-- The host's logarithm of the row-wise softmax: the row maxima (taken once more against minus infinity) and the row
    sums are reductions broadcast back to a column and then over the row. -/
theorem host_logSoftmax (Y : FVec Ideal ⟨2, ![M, N]⟩ .f32)
    (hrt : (⟨2, ![M, N]⟩ : Shape).ReducesTo [1] (⟨1, ![M]⟩ : Shape)) (hr : (⟨2, ![M, N]⟩ : Shape).Reduces [1] (⟨1, ![M]⟩ : Shape))
    (hu : 0 < (⟨0, ![]⟩ : Shape).numel)
    (hb0 : (⟨0, ![]⟩ : Shape).BroadcastsInDim ⟨1, ![M]⟩ ![]) (hb1 : (⟨1, ![M]⟩ : Shape).BroadcastsInDim ⟨2, ![M, 1]⟩ ![0])
    (hb2 : (⟨2, ![M, 1]⟩ : Shape).BroadcastsInDim ⟨2, ![M, N]⟩ ![0, 1]) :
    subf (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu)))))
      (broadcastInDim ⟨2, ![M, N]⟩ ![0, 1] hb2 (Host.log (broadcastInDim ⟨2, ![M, 1]⟩ ![0] hb1
        (Host.reduceAdd (Host.exp (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))))))
          (constant (F := Ideal) ⟨0, ![]⟩ .f32 0x00000000#32) hrt hu))))
      = logSoftmax Y := by
  have hm : ∀ (p : Fin M) (q : Fin N),
      broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))) (ix2 p q)
        = rowMax Y p := fun p q => by
    rw [broadcastInDim_a1_ab_apply, Cert.Layout.bcast_vec_col_apply, maximumf_apply, Cert.Layout.bcast_scalar_apply,
      host_reduce_max_row Y hrt hr hu p]
    exact max_negInf _
  funext i
  obtain ⟨p, q, rfl⟩ : ∃ (p : Fin M) (q : Fin N), i = ix2 p q := ⟨i 0, i 1, eq_ix2 i⟩
  rw [logSoftmax_apply, subf_apply, subf_apply, hm p q, broadcastInDim_a1_ab_apply]
  show (Y (ix2 p q) - rowMax Y p) - Ideal.log (broadcastInDim ⟨2, ![M, 1]⟩ ![0] hb1
        (Host.reduceAdd (Host.exp (subf Y (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))))))
          (constant (F := Ideal) ⟨0, ![]⟩ .f32 0x00000000#32) hrt hu) (ix2 p (0 : Fin 1))) = _
  rw [Cert.Layout.bcast_vec_col_apply, host_reduce_add_row _ hrt hr hu p]
  refine congrArg (fun s => (Y (ix2 p q) - rowMax Y p) - Ideal.log s) (Finset.sum_congr rfl fun k _ => ?_)
  show Ideal.exp (Y (ix2 p k) - broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf Y (constant (F := Ideal) ⟨0, ![]⟩ .f32 0xFF800000#32) hrt hu))) (ix2 p k)) = _
  rw [hm p k]

end Cert.Gcn

end
-- ==== Proof.LibAttention.lean ====
/-
  One head of cosine-similarity attention on the extended reals, entry by entry, generic in the sizes.

  Every row of the queries and of the keys is divided by the larger of its Euclidean length and a bound; the
  scores are the inner products of a normalised query row with every normalised key row; each row of scores
  goes through the softmax — the exponential of the entry minus the row's largest entry, divided by the sum
  over the row of those exponentials —; the result is the product of the softmax table with the values.

  The vector unit's spelling of the head (lane sums and lane maxima kept as columns by a cast and broadcast
  back over the row, a change of float format before each product, the key matrix transposed, both products
  taken into a zero accumulator) is that one function of the three matrices.
-/
import proofs.«129219_j87170656239755_2_alg».proof.Proof.LibRowSoftmax

noncomputable section

open scoped BigOperators

namespace Cert.Attention

open Cert.Dense Cert.Gcn Idealize.ShloMosaic Idealize.ShloMosaic.ValueIdx

variable {M N K D : ℕ}

/-- The sum of the squares of row p. -/
def rowSq (X : Mat M K) (p : Fin M) : EReal := ∑ k : Fin K, X (ix2 p k) * X (ix2 p k)

/-- Every row divided by the larger of its Euclidean length and the bound ε. -/
def normRows (ε : EReal) (X : Mat M K) : Mat M K := fun i =>
  Ideal.div (X i) (max (Ideal.sqrt (rowSq X (i 0))) ε)

/-- The table of inner products: entry (p, q) is row p of A against row q of B. -/
def gram (A : Mat M K) (B : Mat N K) : Mat M N := fun i => ∑ k : Fin K, A (ix2 (i 0) k) * B (ix2 (i 1) k)

/-- The row-wise softmax: exp (s − m) over the sum along the row of exp (s − m), m the row's largest entry. -/
def softmaxRows (S : Mat M N) : Mat M N := fun i =>
  Ideal.div (Ideal.exp (S i - rowMax S (i 0))) (∑ k : Fin N, Ideal.exp (S (ix2 (i 0) k) - rowMax S (i 0)))

/-- One attention head: the softmax of the scores of the normalised rows, times the values. -/
def head (ε : EReal) (Q : Mat M K) (Kx : Mat N K) (V : Mat N D) : Mat M D :=
  mm (softmaxRows (gram (normRows ε Q) (normRows ε Kx))) V

theorem normRows_apply (ε : EReal) (X : Mat M K) (p : Fin M) (q : Fin K) :
    normRows ε X (ix2 p q) = Ideal.div (X (ix2 p q)) (max (Ideal.sqrt (rowSq X p)) ε) := rfl

theorem gram_apply (A : Mat M K) (B : Mat N K) (p : Fin M) (q : Fin N) :
    gram A B (ix2 p q) = ∑ k : Fin K, A (ix2 p k) * B (ix2 q k) := rfl

theorem softmaxRows_apply (S : Mat M N) (p : Fin M) (q : Fin N) :
    softmaxRows S (ix2 p q)
      = Ideal.div (Ideal.exp (S (ix2 p q) - rowMax S p)) (∑ k : Fin N, Ideal.exp (S (ix2 p k) - rowMax S p)) := rfl

theorem head_apply (ε : EReal) (Q : Mat M K) (Kx : Mat N K) (V : Mat N D) (p : Fin M) (q : Fin D) :
    head ε Q Kx V (ix2 p q)
      = ∑ k : Fin N, softmaxRows (gram (normRows ε Q) (normRows ε Kx)) (ix2 p k) * V (ix2 k q) := rfl

/-! ## As the vector unit spells it -/

/-- A transposed matrix read at (k, q): the matrix at (q, k). -/
theorem transpose_swap_apply {α : Type} (B : (⟨2, ![N, K]⟩ : Shape).Idx → α)
    (h : (⟨2, ![N, K]⟩ : Shape).Transposes [1, 0] ⟨2, ![K, N]⟩) (k : Fin K) (q : Fin N) :
    transpose ⟨2, ![K, N]⟩ [1, 0] B h (ix2 k q) = B (ix2 q k) :=
  transpose_apply [1, 0] B h (ix2 k q) (ix2 q k) (fun b => by
    match b with
    | ⟨0, _⟩ => rfl
    | ⟨1, _⟩ => rfl)

/-- The rows divided by the larger of the root of their lane sum of squares, kept as a column, and a splat bound. -/
theorem kernel_normRows (w : BitVec 32) (X : FVec Ideal ⟨2, ![M, K]⟩ .f32)
    (hr : (⟨2, ![M, K]⟩ : Shape).Reduces [1] (⟨1, ![M]⟩ : Shape)) (hφ : FKind.Formats .f32)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, K]⟩) :
    divf X (broadcastTo ⟨2, ![M, K]⟩ (maximumf
        (sqrt (shapeCast ⟨2, ![M, 1]⟩ (multiReduction .add [1] ⟨1, ![M]⟩ (mulf X X) 0x00000000#32 hr hφ hadd) hc))
        (broadcast ⟨2, ![M, 1]⟩ (Scalar.ofBits (F := Ideal) .f32 w))) hb)
      = normRows (Ideal.ofBits .f32 w) X := by
  funext i
  obtain ⟨p, q, rfl⟩ : ∃ (p : Fin M) (q : Fin K), i = ix2 p q := ⟨i 0, i 1, eq_ix2 i⟩
  rw [normRows_apply, divf_apply, broadcastTo_a1_ab_apply, maximumf_apply]
  show Ideal.div (X (ix2 p q)) (max (Ideal.sqrt (shapeCast ⟨2, ![M, 1]⟩
      (multiReduction .add [1] ⟨1, ![M]⟩ (mulf X X) 0x00000000#32 hr hφ hadd) hc (ix2 p (0 : Fin 1)))) (Ideal.ofBits .f32 w)) = _
  rw [Cert.Layout.cast_vec_col_apply, reduce_add_row]
  rfl

/-- A product with the transposed right operand into a zero accumulator is the table of inner products of the rows. -/
theorem kernel_gram {φ₁ φ₂ : FTy} (prec : Option ContractPrecision) (A : FVec Ideal ⟨2, ![M, K]⟩ φ₁) (B : FVec Ideal ⟨2, ![N, K]⟩ φ₂)
    (h : (⟨2, ![N, K]⟩ : Shape).Transposes [1, 0] ⟨2, ![K, N]⟩) :
    matmul (DotDims.plain M K N) prec A (transpose ⟨2, ![K, N]⟩ [1, 0] B h) (constant (F := Ideal) ⟨2, ![M, N]⟩ .f32 0x00000000#32)
      = gram A B := by
  rw [matmul_plain_zero]
  funext i
  obtain ⟨p, q, rfl⟩ : ∃ (p : Fin M) (q : Fin N), i = ix2 p q := ⟨i 0, i 1, eq_ix2 i⟩
  show ∑ k : Fin K, A (ix2 p k) * transpose ⟨2, ![K, N]⟩ [1, 0] B h (ix2 k q) = ∑ k : Fin K, A (ix2 p k) * B (ix2 q k)
  exact Finset.sum_congr rfl fun k _ => by rw [transpose_swap_apply]

/-- The vector unit's row-wise softmax: the row maxima and the row sums are lane reductions kept as columns and
    broadcast back over the row. -/
theorem kernel_softmaxRows (S : FVec Ideal ⟨2, ![M, N]⟩ .f32) (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩) :
    divf (exp (subf S (broadcastTo ⟨2, ![M, N]⟩ (shapeCast ⟨2, ![M, 1]⟩ (multiReduction .maximumf [1] ⟨1, ![M]⟩ S 0xFF800000#32 hr hφ hmax) hc) hb)))
      (broadcastTo ⟨2, ![M, N]⟩ (shapeCast ⟨2, ![M, 1]⟩ (multiReduction .add [1] ⟨1, ![M]⟩
        (exp (subf S (broadcastTo ⟨2, ![M, N]⟩ (shapeCast ⟨2, ![M, 1]⟩ (multiReduction .maximumf [1] ⟨1, ![M]⟩ S 0xFF800000#32 hr hφ hmax) hc) hb)))
        0x00000000#32 hr hφ hadd) hc) hb)
      = softmaxRows S := by
  have hm : ∀ (p : Fin M) (q : Fin N),
      broadcastTo ⟨2, ![M, N]⟩ (shapeCast ⟨2, ![M, 1]⟩ (multiReduction .maximumf [1] ⟨1, ![M]⟩ S 0xFF800000#32 hr hφ hmax) hc) hb (ix2 p q)
        = rowMax S p := fun p q => by
    rw [broadcastTo_a1_ab_apply, Cert.Layout.cast_vec_col_apply, reduce_max_row]
  have he : ∀ (p : Fin M) (q : Fin N),
      exp (subf S (broadcastTo ⟨2, ![M, N]⟩ (shapeCast ⟨2, ![M, 1]⟩ (multiReduction .maximumf [1] ⟨1, ![M]⟩ S 0xFF800000#32 hr hφ hmax) hc) hb)) (ix2 p q)
        = Ideal.exp (S (ix2 p q) - rowMax S p) := fun p q => by
    show Ideal.exp (S (ix2 p q) - broadcastTo ⟨2, ![M, N]⟩ (shapeCast ⟨2, ![M, 1]⟩ (multiReduction .maximumf [1] ⟨1, ![M]⟩ S 0xFF800000#32 hr hφ hmax) hc) hb (ix2 p q)) = _
    rw [hm p q]
  funext i
  obtain ⟨p, q, rfl⟩ : ∃ (p : Fin M) (q : Fin N), i = ix2 p q := ⟨i 0, i 1, eq_ix2 i⟩
  rw [softmaxRows_apply, divf_apply, he p q, broadcastTo_a1_ab_apply, Cert.Layout.cast_vec_col_apply, reduce_add_row]
  exact congrArg (Ideal.div (Ideal.exp (S (ix2 p q) - rowMax S p))) (Finset.sum_congr rfl fun k _ => he p k)

/-- The vector unit's head: both operands of the scores normalised, the formats changed before each product, the
    keys transposed, the softmax of the scores, and the product with the values — each product into zero. -/
theorem kernel_head (w : BitVec 32) (Q : FVec Ideal ⟨2, ![M, K]⟩ .f32) (Kx : FVec Ideal ⟨2, ![N, K]⟩ .f32) (V : FVec Ideal ⟨2, ![N, D]⟩ .f32)
    (d1 : DotDims ⟨2, ![M, K]⟩ ⟨2, ![K, N]⟩ ⟨2, ![M, N]⟩) (hd1 : d1 = DotDims.plain M K N)
    (d2 : DotDims ⟨2, ![M, N]⟩ ⟨2, ![N, D]⟩ ⟨2, ![M, D]⟩) (hd2 : d2 = DotDims.plain M N D)
    (prec1 prec2 : Option ContractPrecision)
    (hrQ : (⟨2, ![M, K]⟩ : Shape).Reduces [1] (⟨1, ![M]⟩ : Shape)) (hrK : (⟨2, ![N, K]⟩ : Shape).Reduces [1] (⟨1, ![N]⟩ : Shape))
    (hrS : (⟨2, ![M, N]⟩ : Shape).Reduces [1] (⟨1, ![M]⟩ : Shape))
    (hφ : FKind.Formats .f32) (hadd : (0x00000000#32 : BitVec 32) = FKind.add.neutral .f32 hφ)
    (hmax : (0xFF800000#32 : BitVec 32) = FKind.maximumf.neutral .f32 hφ)
    (hcM : (⟨1, ![M]⟩ : Shape).ShapeCasts ⟨2, ![M, 1]⟩) (hcN : (⟨1, ![N]⟩ : Shape).ShapeCasts ⟨2, ![N, 1]⟩)
    (hbQ : (⟨2, ![M, 1]⟩ : Shape).Broadcasts ⟨2, ![M, K]⟩) (hbK : (⟨2, ![N, 1]⟩ : Shape).Broadcasts ⟨2, ![N, K]⟩)
    (hbS : (⟨2, ![M, 1]⟩ : Shape).Broadcasts ⟨2, ![M, N]⟩)
    (ht : (⟨2, ![N, K]⟩ : Shape).Transposes [1, 0] ⟨2, ![K, N]⟩) (hlt : FTy.bits .bf16 < FTy.bits .f32) :
    matmul d2 prec2
      (truncf .bf16
        (divf
          (exp (subf
            (matmul d1 prec1
              (truncf .bf16 (divf Q (broadcastTo ⟨2, ![M, K]⟩ (maximumf
                (sqrt (shapeCast ⟨2, ![M, 1]⟩ (multiReduction .add [1] ⟨1, ![M]⟩ (mulf Q Q) 0x00000000#32 hrQ hφ hadd) hcM))
                (broadcast ⟨2, ![M, 1]⟩ (Scalar.ofBits (F := Ideal) .f32 w))) hbQ)) hlt)
              (transpose ⟨2, ![K, N]⟩ [1, 0]
                (truncf .bf16 (divf Kx (broadcastTo ⟨2, ![N, K]⟩ (maximumf
                  (sqrt (shapeCast ⟨2, ![N, 1]⟩ (multiReduction .add [1] ⟨1, ![N]⟩ (mulf Kx Kx) 0x00000000#32 hrK hφ hadd) hcN))
                  (broadcast ⟨2, ![N, 1]⟩ (Scalar.ofBits (F := Ideal) .f32 w))) hbK)) hlt) ht)
              (constant (F := Ideal) ⟨2, ![M, N]⟩ .f32 0x00000000#32))
            (broadcastTo ⟨2, ![M, N]⟩ (shapeCast ⟨2, ![M, 1]⟩ (multiReduction .maximumf [1] ⟨1, ![M]⟩
              (matmul d1 prec1
                (truncf .bf16 (divf Q (broadcastTo ⟨2, ![M, K]⟩ (maximumf
                  (sqrt (shapeCast ⟨2, ![M, 1]⟩ (multiReduction .add [1] ⟨1, ![M]⟩ (mulf Q Q) 0x00000000#32 hrQ hφ hadd) hcM))
                  (broadcast ⟨2, ![M, 1]⟩ (Scalar.ofBits (F := Ideal) .f32 w))) hbQ)) hlt)
                (transpose ⟨2, ![K, N]⟩ [1, 0]
                  (truncf .bf16 (divf Kx (broadcastTo ⟨2, ![N, K]⟩ (maximumf
                    (sqrt (shapeCast ⟨2, ![N, 1]⟩ (multiReduction .add [1] ⟨1, ![N]⟩ (mulf Kx Kx) 0x00000000#32 hrK hφ hadd) hcN))
                    (broadcast ⟨2, ![N, 1]⟩ (Scalar.ofBits (F := Ideal) .f32 w))) hbK)) hlt) ht)
                (constant (F := Ideal) ⟨2, ![M, N]⟩ .f32 0x00000000#32))
              0xFF800000#32 hrS hφ hmax) hcM) hbS)))
          (broadcastTo ⟨2, ![M, N]⟩ (shapeCast ⟨2, ![M, 1]⟩ (multiReduction .add [1] ⟨1, ![M]⟩
            (exp (subf
              (matmul d1 prec1
                (truncf .bf16 (divf Q (broadcastTo ⟨2, ![M, K]⟩ (maximumf
                  (sqrt (shapeCast ⟨2, ![M, 1]⟩ (multiReduction .add [1] ⟨1, ![M]⟩ (mulf Q Q) 0x00000000#32 hrQ hφ hadd) hcM))
                  (broadcast ⟨2, ![M, 1]⟩ (Scalar.ofBits (F := Ideal) .f32 w))) hbQ)) hlt)
                (transpose ⟨2, ![K, N]⟩ [1, 0]
                  (truncf .bf16 (divf Kx (broadcastTo ⟨2, ![N, K]⟩ (maximumf
                    (sqrt (shapeCast ⟨2, ![N, 1]⟩ (multiReduction .add [1] ⟨1, ![N]⟩ (mulf Kx Kx) 0x00000000#32 hrK hφ hadd) hcN))
                    (broadcast ⟨2, ![N, 1]⟩ (Scalar.ofBits (F := Ideal) .f32 w))) hbK)) hlt) ht)
                (constant (F := Ideal) ⟨2, ![M, N]⟩ .f32 0x00000000#32))
              (broadcastTo ⟨2, ![M, N]⟩ (shapeCast ⟨2, ![M, 1]⟩ (multiReduction .maximumf [1] ⟨1, ![M]⟩
                (matmul d1 prec1
                  (truncf .bf16 (divf Q (broadcastTo ⟨2, ![M, K]⟩ (maximumf
                    (sqrt (shapeCast ⟨2, ![M, 1]⟩ (multiReduction .add [1] ⟨1, ![M]⟩ (mulf Q Q) 0x00000000#32 hrQ hφ hadd) hcM))
                    (broadcast ⟨2, ![M, 1]⟩ (Scalar.ofBits (F := Ideal) .f32 w))) hbQ)) hlt)
                  (transpose ⟨2, ![K, N]⟩ [1, 0]
                    (truncf .bf16 (divf Kx (broadcastTo ⟨2, ![N, K]⟩ (maximumf
                      (sqrt (shapeCast ⟨2, ![N, 1]⟩ (multiReduction .add [1] ⟨1, ![N]⟩ (mulf Kx Kx) 0x00000000#32 hrK hφ hadd) hcN))
                      (broadcast ⟨2, ![N, 1]⟩ (Scalar.ofBits (F := Ideal) .f32 w))) hbK)) hlt) ht)
                  (constant (F := Ideal) ⟨2, ![M, N]⟩ .f32 0x00000000#32))
                0xFF800000#32 hrS hφ hmax) hcM) hbS)))
            0x00000000#32 hrS hφ hadd) hcM) hbS))
        hlt)
      (truncf .bf16 V hlt)
      (constant (F := Ideal) ⟨2, ![M, D]⟩ .f32 0x00000000#32)
      = head (Ideal.ofBits .f32 w) Q Kx V := by
  subst hd1 hd2
  simp only [truncf_id]
  rw [kernel_normRows w Q hrQ hφ hadd hcM hbQ, kernel_normRows w Kx hrK hφ hadd hcN hbK, kernel_gram,
    kernel_softmaxRows _ hrS hφ hmax hadd hcM hbS, matmul_plain_zero]
  rfl

end Cert.Attention

end
-- ==== Proof.LibAffineCols.lean ====
/-
  Columns of an affine layer. A layer whose weight matrix is several matrices set side by side, and whose bias row is
  the matching biases set end to end, computes all the pieces' layers at once: the slice of its result on one piece's
  columns is that piece's layer. The statements here are the entry-by-entry facts behind that: a column of the layer
  sees only that column of the weights and that entry of the bias; slices, concatenations and the vector-to-row cast
  read at an entry.
-/
import proofs.«129219_j87170656239755_2_alg».proof.Proof.LibDense

noncomputable section

open scoped BigOperators

namespace Cert.Dense

open Idealize.ShloMosaic Idealize.ShloMosaic.ValueIdx

variable {M K N N' : ℕ}

/-- A column of an affine layer depends on that column of the weight matrix and that entry of the bias only: if column
    σ j of W is column j of W' and entry σ j of the bias row is entry j of b', then entry (p, σ j) of the layer with W and
    the bias row is entry (p, j) of the layer with W' and b'. -/
theorem affine2_cols (A : Mat M K) (W : Mat K N) (b : Mat 1 N) (W' : Mat K N') (b' : Row N') (σ : Fin N' → Fin N)
    (hW : ∀ k j, W (ix2 k (σ j)) = W' (ix2 k j)) (hb : ∀ j, b (ix2 (0 : Fin 1) (σ j)) = b' (ix1 j)) (p : Fin M) (j : Fin N') :
    affine2 A W b (ix2 p (σ j)) = affine A W' b' (ix2 p j) := by
  show mm A W (ix2 p (σ j)) + b (ix2 (0 : Fin 1) (σ j)) = mm A W' (ix2 p j) + b' (ix1 j)
  rw [hb]
  refine congrArg (· + b' (ix1 j)) ?_
  unfold mm
  exact Finset.sum_congr rfl fun k _ => by
    show A (ix2 p k) * W (ix2 k (σ j)) = A (ix2 p k) * W' (ix2 k j)
    rw [hW]

/-- A unit-stride slice of columns off … off + N' − 1 of a matrix, read at an entry. -/
theorem slice_cols_apply (X : Mat M N) (off : ℕ) (h : (⟨2, ![M, N]⟩ : Shape).Slices ![0, off] ⟨2, ![M, N']⟩)
    (p : Fin M) (j : Fin N') (hj : off + j.val < N) :
    extractStridedSlice ⟨2, ![M, N']⟩ ![0, off] X h (ix2 p j) = X (ix2 p ⟨off + j.val, hj⟩) :=
  extractStridedSlice_apply ![0, off] X h (ix2 p j) (ix2 p ⟨off + j.val, hj⟩) fun a => by
    match a with
    | ⟨0, _⟩ => show p.val = 0 + p.val; omega
    | ⟨1, _⟩ => rfl

/-- So a slice of columns of an affine layer whose weight matrix and bias row restrict, on those columns, to W' and b'
    is the affine layer with W' and b'. -/
theorem slice_affine2 (A : Mat M K) (W : Mat K N) (b : Mat 1 N) (W' : Mat K N') (b' : Row N') (off : ℕ)
    (hoff : ∀ j : Fin N', off + j.val < N) (h : (⟨2, ![M, N]⟩ : Shape).Slices ![0, off] ⟨2, ![M, N']⟩)
    (hW : ∀ k (j : Fin N'), W (ix2 k ⟨off + j.val, hoff j⟩) = W' (ix2 k j))
    (hb : ∀ j : Fin N', b (ix2 (0 : Fin 1) ⟨off + j.val, hoff j⟩) = b' (ix1 j)) :
    extractStridedSlice ⟨2, ![M, N']⟩ ![0, off] (affine2 A W b) h = affine A W' b' := by
  funext i
  obtain ⟨p, j, rfl⟩ : ∃ (p : Fin M) (j : Fin N'), i = ix2 p j := ⟨i 0, i 1, eq_ix2 i⟩
  rw [slice_cols_apply (affine2 A W b) off h p j (hoff j)]
  exact affine2_cols A W b W' b' (fun j => ⟨off + j.val, hoff j⟩) hW hb p j

/-- A concatenation of matrices along the columns, read at an entry of piece k, whose columns start at column pre. -/
theorem concat_cols_apply {n₁ : ℕ} (xs : List ((s : Shape) × (s.Idx → EReal)))
    (h : Shape.Concatenates (xs.map (·.1)) ⟨2, ![K, N]⟩ (1 : Fin 2))
    (k : ℕ) (hk : k < xs.length) (x₁ : Mat K n₁) (hxk : xs[k] = ⟨⟨2, ![K, n₁]⟩, x₁⟩) (pre : ℕ)
    (hpre : (((xs.take k).map (·.1)).map fun s => if h : s.rank = (⟨2, ![K, N]⟩ : Shape).rank then s.size ((1 : Fin 2).cast h.symm) else 0).sum = pre)
    (r : Fin K) (j : Fin n₁) (hj : pre + j.val < N) :
    concatenate ⟨2, ![K, N]⟩ (1 : Fin 2) xs h (ix2 r ⟨pre + j.val, hj⟩) = x₁ (ix2 r j) :=
  concatenate_apply_piece (1 : Fin 2) xs h (ix2 r ⟨pre + j.val, hj⟩) k hk ⟨2, ![K, n₁]⟩ x₁ hxk rfl pre hpre (ix2 r j)
    (fun b hb => by
      match b with
      | ⟨0, _⟩ => rfl
      | ⟨1, _⟩ => exact absurd rfl hb)
    rfl

/-- A concatenation of vectors, read at an entry of piece k, whose entries start at entry pre. -/
theorem concat_vec_apply {n₁ : ℕ} (xs : List ((s : Shape) × (s.Idx → EReal)))
    (h : Shape.Concatenates (xs.map (·.1)) ⟨1, ![N]⟩ (0 : Fin 1))
    (k : ℕ) (hk : k < xs.length) (x₁ : Row n₁) (hxk : xs[k] = ⟨⟨1, ![n₁]⟩, x₁⟩) (pre : ℕ)
    (hpre : (((xs.take k).map (·.1)).map fun s => if h : s.rank = (⟨1, ![N]⟩ : Shape).rank then s.size ((0 : Fin 1).cast h.symm) else 0).sum = pre)
    (j : Fin n₁) (hj : pre + j.val < N) :
    concatenate ⟨1, ![N]⟩ (0 : Fin 1) xs h (ix1 ⟨pre + j.val, hj⟩) = x₁ (ix1 j) :=
  concatenate_apply_piece (0 : Fin 1) xs h (ix1 ⟨pre + j.val, hj⟩) k hk ⟨1, ![n₁]⟩ x₁ hxk rfl pre hpre (ix1 j)
    (fun b hb => by
      match b with
      | ⟨0, _⟩ => exact absurd rfl hb)
    rfl

/-- A vector cast to a one-row matrix, read at an entry of its one row. -/
theorem row_of_vec_apply (v : Row N) (h : (⟨1, ![N]⟩ : Shape).ShapeCasts ⟨2, ![1, N]⟩) (q : Fin N) :
    shapeCast ⟨2, ![1, N]⟩ v h (ix2 (0 : Fin 1) q) = v (ix1 q) := by
  refine (shapeCast_addUnit_apply ![N] v h (ix2 (0 : Fin 1) q)).trans (congrArg v (funext fun a => ?_))
  match a with
  | ⟨0, _⟩ => rfl

end Cert.Dense

end
-- ==== Proof.LibMhaHead.lean ====
/-
  One head of scaled dot-product attention with an additive key bias, on the extended reals, entry by entry,
  generic in the sizes.

  The scores of a head are the inner products of a query row with every key row, both restricted to the head's
  columns, multiplied by a scalar, plus the bias of the key; each row of scores goes through the softmax — the
  exponential of the entry minus the row's largest entry, divided by the sum over the row of those exponentials —
  and the head's result is the product of that table with the head's columns of the values.

  The row's largest entry folded from minus infinity and then compared with minus infinity once more is the same
  largest entry, so the vector unit's spelling with that extra comparison is the same softmax.
-/
import proofs.«129219_j87170656239755_2_alg».proof.Proof.LibAttention
import proofs.«129219_j87170656239755_2_alg».proof.Proof.LibAffineCols

noncomputable section

open scoped BigOperators

namespace Cert.Mha

open Cert.Dense Cert.Gcn Cert.Attention Idealize.ShloMosaic Idealize.ShloMosaic.ValueIdx

variable {M N D Wd : ℕ}

/-- The softmax of a finite family: exp (f t − m) over Σ exp (f k − m), m the largest value folded from −∞. -/
def smax (f : Fin N → EReal) (t : Fin N) : EReal :=
  Ideal.div (Ideal.exp (f t - (Finset.univ : Finset (Fin N)).fold max negInf f))
    (∑ k : Fin N, Ideal.exp (f k - (Finset.univ : Finset (Fin N)).fold max negInf f))

/-- A row of the row-wise softmax is the softmax of that row. -/
theorem softmaxRows_eq_smax (S : Mat M N) (p : Fin M) (q : Fin N) :
    softmaxRows S (ix2 p q) = smax (fun k => S (ix2 p k)) q := rfl

/-- A table multiplied by a scalar and shifted by a bias row: S(p, q) · c + B(0, q). -/
def scaleShift (S : Mat M N) (c : EReal) (B : Mat 1 N) : Mat M N := fun i => S i * c + B (ix2 (0 : Fin 1) (i 1))

/-- The vector unit's form: times a splat scalar, plus the one-row bias broadcast over the rows. -/
theorem kernel_scaleShift (S : FVec Ideal ⟨2, ![M, N]⟩ .f32) (w : BitVec 32) (B : FVec Ideal ⟨2, ![1, N]⟩ .f32)
    (hb : (⟨2, ![1, N]⟩ : Shape).Broadcasts ⟨2, ![M, N]⟩) :
    addf (mulf S (broadcast ⟨2, ![M, N]⟩ (Scalar.ofBits (F := Ideal) .f32 w))) (broadcastTo ⟨2, ![M, N]⟩ B hb)
      = scaleShift S (Ideal.ofBits .f32 w) B := by
  funext i
  obtain ⟨p, q, rfl⟩ : ∃ (p : Fin M) (q : Fin N), i = ix2 p q := ⟨i 0, i 1, eq_ix2 i⟩
  show S (ix2 p q) * Ideal.ofBits .f32 w + broadcastTo ⟨2, ![M, N]⟩ B hb (ix2 p q) = _
  rw [broadcastTo_1b_ab_apply]
  rfl

/-- The row maxima compared once more with a splat of minus infinity are the row maxima. -/
theorem guard_rowMax (S : FVec Ideal ⟨2, ![M, N]⟩ .f32) (hr : (⟨2, ![M, N]⟩ : Shape).Reduces [1] (⟨1, ![M]⟩ : Shape))
    (hφ : FKind.Formats .f32) (hmax : (0xFF800000#32 : BitVec 32) = FKind.maximumf.neutral .f32 hφ) :
    maximumf (broadcast ⟨1, ![M]⟩ (Scalar.ofBits (F := Ideal) .f32 0xFF800000#32))
        (multiReduction .maximumf [1] ⟨1, ![M]⟩ S 0xFF800000#32 hr hφ hmax)
      = multiReduction .maximumf [1] ⟨1, ![M]⟩ S 0xFF800000#32 hr hφ hmax := by
  funext i
  exact max_negInf _

/-- The vector unit's row-wise softmax with the row maxima compared once more with minus infinity. -/
theorem kernel_softmaxRows_guard (S : FVec Ideal ⟨2, ![M, N]⟩ .f32) (hr : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩) :
    divf (exp (subf S (broadcastTo ⟨2, ![M, N]⟩ (shapeCast ⟨2, ![M, 1]⟩
          (maximumf (broadcast ⟨1, ![M]⟩ (Scalar.ofBits (F := Ideal) .f32 0xFF800000#32))
            (multiReduction .maximumf [1] ⟨1, ![M]⟩ S 0xFF800000#32 hr hφ hmax)) hc) hb)))
      (broadcastTo ⟨2, ![M, N]⟩ (shapeCast ⟨2, ![M, 1]⟩ (multiReduction .add [1] ⟨1, ![M]⟩
        (exp (subf S (broadcastTo ⟨2, ![M, N]⟩ (shapeCast ⟨2, ![M, 1]⟩
          (maximumf (broadcast ⟨1, ![M]⟩ (Scalar.ofBits (F := Ideal) .f32 0xFF800000#32))
            (multiReduction .maximumf [1] ⟨1, ![M]⟩ S 0xFF800000#32 hr hφ hmax)) hc) hb)))
        0x00000000#32 hr hφ hadd) hc) hb)
      = softmaxRows S := by
  rw [guard_rowMax S hr hφ hmax]
  exact kernel_softmaxRows S hr hφ hmax hadd hc hb

/-- One head read at an entry: the softmax over the keys t of (Σ_w Q(p, off+w) · K(t, off+w)) · c + B(0, t), times
    V(t, off+j), summed over t. -/
def headAt (Q : Mat M D) (K : Mat N D) (V : Mat N D) (B : Mat 1 N) (c : EReal) (off : ℕ)
    (hoff : ∀ j : Fin Wd, off + j.val < D) : Mat M Wd := fun i =>
  ∑ t : Fin N, smax (fun t' => (∑ w : Fin Wd, Q (ix2 (i 0) ⟨off + w.val, hoff w⟩) * K (ix2 t' ⟨off + w.val, hoff w⟩)) * c
      + B (ix2 (0 : Fin 1) t')) t * V (ix2 t ⟨off + (i 1).val, hoff (i 1)⟩)

/-- The product of the softmax of the scaled, shifted table of inner products of two column slices with a column
    slice of the values is the head. -/
theorem head_eq (Q : Mat M D) (K : Mat N D) (V : Mat N D) (B : Mat 1 N) (c : EReal) (off : ℕ)
    (hoff : ∀ j : Fin Wd, off + j.val < D) (Qh : Mat M Wd) (Kh : Mat N Wd) (Vh : Mat N Wd)
    (hQ : ∀ p j, Qh (ix2 p j) = Q (ix2 p ⟨off + j.val, hoff j⟩))
    (hK : ∀ p j, Kh (ix2 p j) = K (ix2 p ⟨off + j.val, hoff j⟩))
    (hV : ∀ p j, Vh (ix2 p j) = V (ix2 p ⟨off + j.val, hoff j⟩)) :
    mm (softmaxRows (scaleShift (gram Qh Kh) c B)) Vh = headAt Q K V B c off hoff := by
  funext i
  obtain ⟨p, j, rfl⟩ : ∃ (p : Fin M) (j : Fin Wd), i = ix2 p j := ⟨i 0, i 1, eq_ix2 i⟩
  show ∑ t : Fin N, softmaxRows (scaleShift (gram Qh Kh) c B) (ix2 p t) * Vh (ix2 t j) = _
  refine Finset.sum_congr rfl fun t _ => ?_
  rw [hV t j, softmaxRows_eq_smax]
  refine congrArg (fun f => smax f t * V (ix2 t ⟨off + j.val, hoff j⟩)) (funext fun t' => ?_)
  show gram Qh Kh (ix2 p t') * c + B (ix2 (0 : Fin 1) t') = _
  rw [gram_apply]
  refine congrArg (fun s => s * c + B (ix2 (0 : Fin 1) t')) (Finset.sum_congr rfl fun w _ => ?_)
  rw [hQ, hK]
  rfl

end Cert.Mha

end
-- ==== Proof.KernelOps.lean ====
/-
  The kernel's products read as sums.

  The score product contracts the second axis of both operands, so its entry (p, q) is the inner product of row p of
  the left operand with row q of the right one; the two other product records are plain row-by-column products.
-/
import proofs.«129219_j87170656239755_2_alg».proof.Proof.Gen.KernelIdeal
import proofs.«129219_j87170656239755_2_alg».proof.Proof.LibMhaHead

noncomputable section

open scoped BigOperators

namespace Cert.KOps

open Cert.KernelIdeal Cert.Dense Cert.Attention Idealize.ShloMosaic Idealize.ShloMosaic.ValueIdx

theorem lhs_rows_0 (i : S512x512.Idx) (q : dot_S512x64_S512x64_S512x512_1_1_0_0_n_n.contr.Idx) :
    (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide),
    dif_pos (show (0 : Fin S512x64.rank) ∈ dot_S512x64_S512x64_S512x512_1_1_0_0_n_n.lhsNonContracting by decide)]
  rfl

theorem rhs_rows_0 (i : S512x512.Idx) (q : dot_S512x64_S512x64_S512x512_1_1_0_0_n_n.contr.Idx) :
    (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide),
    dif_pos (show (0 : Fin S512x64.rank) ∈ dot_S512x64_S512x64_S512x512_1_1_0_0_n_n.rhsNonContracting by decide)]
  rfl

/-- The product contracting the columns of both operands, into a zero accumulator, is the table of inner products of
    their rows. -/
theorem matmul_rows {φ₁ φ₂ : FTy} (prec : Option ContractPrecision) (A : FVec Ideal S512x64 φ₁) (B : FVec Ideal S512x64 φ₂) :
    matmul dot_S512x64_S512x64_S512x512_1_1_0_0_n_n prec A B (constant (F := Ideal) S512x512 .f32 0x00000000#32) = gram A B := by
  funext j
  simp only [matmul]
  rw [Ideal.matmul_constant_zero_apply]
  show _ = ∑ k : Fin 64, A (ix2 (j 0) k) * B (ix2 (j 1) k)
  rw [← Equiv.sum_comp (contrEquiv1 dot_S512x64_S512x64_S512x512_1_1_0_0_n_n 64 rfl rfl).symm]
  refine Finset.sum_congr rfl fun k _ => ?_
  have hk := contrEquiv1_symm_val dot_S512x64_S512x64_S512x512_1_1_0_0_n_n 64 rfl rfl k
  have el : dot_S512x64_S512x64_S512x512_1_1_0_0_n_n.lhsIdx j ((contrEquiv1 dot_S512x64_S512x64_S512x512_1_1_0_0_n_n 64 rfl rfl).symm k) = ix2 (j 0) k :=
    funext fun a => Fin.ext (by
      match a with
      | ⟨0, _⟩ => exact lhs_rows_0 _ _
      | ⟨1, _⟩ => exact (dot_S512x64_S512x64_S512x512_1_1_0_0_n_n.lhsIdx_val_of_single rfl j _).trans hk)
  have er : dot_S512x64_S512x64_S512x512_1_1_0_0_n_n.rhsIdx j ((contrEquiv1 dot_S512x64_S512x64_S512x512_1_1_0_0_n_n 64 rfl rfl).symm k) = ix2 (j 1) k :=
    funext fun a => Fin.ext (by
      match a with
      | ⟨0, _⟩ => exact rhs_rows_0 _ _
      | ⟨1, _⟩ => exact (dot_S512x64_S512x64_S512x512_1_1_0_0_n_n.rhsIdx_val_of_single rfl j _).trans hk)
  exact congr (congrArg _ (congrArg A el)) (congrArg B er)

theorem dot_qk : dot_S512x768_S768x1536_S512x1536_1_0_0_1_n_n = DotDims.plain 512 768 1536 := rfl
theorem dot_v : dot_S512x768_S768x768_S512x768_1_0_0_1_n_n = DotDims.plain 512 768 768 := rfl
theorem dot_av : dot_S512x512_S512x64_S512x64_1_0_0_1_n_n = DotDims.plain 512 512 64 := rfl

end Cert.KOps

end
-- ==== Proof.Spec.lean ====
/-
  Masked multi-head self-attention over f32[4, 8, 512, 768] with twelve heads of width 64, as one function of the
  arguments on the extended reals, entry by entry.

  A projection of the input is x · Wᵀ + b: entry (p, b, s, e) is Σ_d x(p, b, s, d) · W(e, d) + bias(e). The head of
  column e is e / 64; its columns are 64 · (e / 64) + w for w < 64. The raw score of query s against key t in a head is
  the inner product over the head's columns of the query projection at s and the key projection at t; an adjustment
  (a scaling and a mask term depending on the batch b and the key t) is applied to it, the adjusted scores of a query go
  through the softmax over the keys, and the result at column e is the softmax-weighted sum of the value projections
  at column e.

  Two adjustments are compared: the raw score times 1/8 plus (m − 1) · 10000, and the raw score divided by 8 minus
  10000 · (1 − m), for a mask value m that is an integer read as a real. They are one function: dividing by the real 8
  is multiplying by the real 1/8 on every extended real, and the two mask terms are the same real number.
-/
import proofs.«129219_j87170656239755_2_alg».proof.Proof.LibMhaHead

noncomputable section

open scoped BigOperators

namespace Cert.MhaSpec

open Cert.Dense Cert.Mha Idealize.ShloMosaic Idealize.ShloMosaic.ValueIdx

/-- The input and the result: extended reals indexed by (particle, batch, position, column). -/
abbrev X4 : Type := (⟨4, ![4, 8, 512, 768]⟩ : Shape).Idx → EReal

/-- The mask read as floats, indexed by (batch, position). -/
abbrev Msk : Type := (⟨2, ![8, 512]⟩ : Shape).Idx → EReal

/-- A projection x · Wᵀ + b at entry (p, b, s, e). -/
def proj (x : X4) (W : Mat 768 768) (bias : Row 768) (p : Fin 4) (b : Fin 8) (s : Fin 512) (e : Fin 768) : EReal :=
  (∑ d : Fin 768, x (ix4 p b s d) * W (ix2 e d)) + bias (ix1 e)

/-- Column w of the head that column e belongs to. -/
def hcol (e : Fin 768) (w : Fin 64) : Fin 768 := ⟨64 * (e.val / 64) + w.val, by have := e.isLt; have := w.isLt; omega⟩

/-- The attention result with the score adjustment `adj`. -/
def attn (adj : EReal → Fin 8 → Fin 512 → EReal) (x : X4) (Wq : Mat 768 768) (bq : Row 768) (Wk : Mat 768 768) (bk : Row 768)
    (Wv : Mat 768 768) (bv : Row 768) : X4 := fun i =>
  ∑ t : Fin 512, smax (fun t' => adj (∑ w : Fin 64, proj x Wq bq (i 0) (i 1) (i 2) (hcol (i 3) w)
      * proj x Wk bk (i 0) (i 1) t' (hcol (i 3) w)) (i 1) t') t * proj x Wv bv (i 0) (i 1) t (i 3)

/-- The raw score times the word of 1/8, plus (m − 1) · 10000. -/
def adjMul (m : Msk) (r : EReal) (b : Fin 8) (t : Fin 512) : EReal :=
  r * Ideal.ofBits .f32 0x3E000000#32 + (m (ix2 b t) - Ideal.ofBits .f32 0x3F800000#32) * Ideal.ofBits .f32 0x461C4000#32

/-- The raw score divided by the word of 8, minus 10000 · (1 − m). -/
def adjDiv (m : Msk) (r : EReal) (b : Fin 8) (t : Fin 512) : EReal :=
  Ideal.div r (Ideal.ofBits .f32 0x41000000#32) - Ideal.ofBits .f32 0x461C4000#32 * (Ideal.ofBits .f32 0x3F800000#32 - m (ix2 b t))

theorem ofBits_eighth : Ideal.ofBits .f32 0x3E000000#32 = ((1 / 8 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_tenk : Ideal.ofBits .f32 0x461C4000#32 = ((10000 : ℝ) : EReal) := by
  simp [Ideal.ofBits, Ideal.ieee, -EReal.coe_mul]; norm_num

/-- For a real mask value the two adjustments agree on every extended real score. -/
theorem adjMul_eq_adjDiv (m : Msk) (hm : ∀ b t, ∃ z : ℝ, m (ix2 b t) = (z : EReal)) : adjMul m = adjDiv m := by
  funext r b t
  obtain ⟨z, hz⟩ := hm b t
  unfold adjMul adjDiv
  rw [hz, ofBits_eighth, ofBits_eight, ofBits_one, ofBits_tenk, Ideal.div_coe (by norm_num : (8 : ℝ) ≠ 0), sub_eq_add_neg (r * _),
    ← EReal.coe_sub, ← EReal.coe_sub, ← EReal.coe_mul, ← EReal.coe_mul, ← EReal.coe_neg]
  congr 2
  ring

end Cert.MhaSpec

end
-- ==== Proof.KernelBlock.lean ====
/-
  The kernel's body on one block, on the extended reals.

  On the block of batch entry (p, b) the body computes the query, key and value slabs as affine layers of the block
  of x (the queries and keys from one product with the two transposed weight matrices side by side), and for each head
  the softmax-weighted sum of the value columns. Read at an entry this is the attention specification at (p, b) with
  the score adjustment "times 1/8 plus the bias row", provided the block, the weights, the bias rows and the mask row
  are the entries of the arguments they were built from.
-/
import proofs.«129219_j87170656239755_2_alg».proof.Proof.KernelHead
import proofs.«129219_j87170656239755_2_alg».proof.Proof.KernelOps
import proofs.«129219_j87170656239755_2_alg».proof.Proof.Spec

noncomputable section

open scoped BigOperators

namespace Cert.KBlock

open Cert.KernelIdeal Cert.KernelIdeal.Gen Cert.KHead Cert.KOps Cert.Dense Cert.Attention Cert.Mha Cert.MhaSpec
open Idealize.ShloMosaic Idealize.ShloMosaic.ValueIdx

/-- The kernel's spelling of one head is the head function of the three slabs and the bias row. -/
theorem hd_eq (Q K V : FVec Ideal S512x768 .f32) (B : FVec Ideal S1x512 .f32) (off : ℕ) (hs : S512x768.Slices ![0, off] S512x64)
    (hoff : ∀ j : Fin 64, off + j.val < 768) :
    hd Q K V B off hs = headAt Q K V B (Ideal.ofBits .f32 0x3E000000#32) off hoff := by
  unfold hd expOf scoresOf
  simp only [truncf_id]
  rw [matmul_rows, kernel_scaleShift,
    kernel_softmaxRows_guard _ reduces_S512x512_S512 (.inl rfl) rfl rfl shapeCasts_S512_S512x1 broadcasts_S512x1_S512x512,
    dot_av, matmul_plain_zero]
  exact head_eq Q K V B _ off hoff _ _ _ (fun p j => slice_cols_apply Q off hs p j (hoff j))
    (fun p j => slice_cols_apply K off hs p j (hoff j)) (fun p j => slice_cols_apply V off hs p j (hoff j))

/-- A block of two heads read at row s: column c of the block is column c of the pair. -/
theorem pair_cast (X : FVec Ideal S512x128 .f32) (s : Fin 512) (c : Fin 128) :
    shapeCast S1x1x512x128 X shapeCasts_S512x128_S1x1x512x128 (ix4 (0 : Fin 1) (0 : Fin 1) s c) = X (ix2 s c) :=
  shapeCast_apply X shapeCasts_S512x128_S1x1x512x128 (ix4 (0 : Fin 1) (0 : Fin 1) s c) (ix2 s c) (by
    rw [Shape.rowMajor_val_two, Shape.rowMajor_val_four]
    show s.val * 128 + c.val = (((0 : ℕ) * 1 + 0) * 512 + s.val) * 128 + c.val
    omega)

/-- The left head of a stored pair. -/
theorem pair_left (Q K V : FVec Ideal S512x768 .f32) (B : FVec Ideal S1x512 .f32) (o0 o1 : ℕ) (h0 : S512x768.Slices ![0, o0] S512x64)
    (h1 : S512x768.Slices ![0, o1] S512x64) (ho0 : ∀ j : Fin 64, o0 + j.val < 768) (s : Fin 512) (j : Fin 64) (hj : 0 + j.val < 128) :
    pairOf Q K V B o0 o1 h0 h1 (ix4 (0 : Fin 1) (0 : Fin 1) s ⟨0 + j.val, hj⟩)
      = headAt Q K V B (Ideal.ofBits .f32 0x3E000000#32) o0 ho0 (ix2 s j) := by
  unfold pairOf
  rw [pair_cast]
  refine (concat_cols_apply (n₁ := 64) [⟨S512x64, hd Q K V B o0 h0⟩, ⟨S512x64, hd Q K V B o1 h1⟩]
    concatenates_S512x64_S512x64_S512x128_d1 0 (by show (0 : ℕ) < 2; omega) (hd Q K V B o0 h0) rfl 0 rfl s j hj).trans ?_
  rw [hd_eq Q K V B o0 h0 ho0]

/-- The right head of a stored pair. -/
theorem pair_right (Q K V : FVec Ideal S512x768 .f32) (B : FVec Ideal S1x512 .f32) (o0 o1 : ℕ) (h0 : S512x768.Slices ![0, o0] S512x64)
    (h1 : S512x768.Slices ![0, o1] S512x64) (ho1 : ∀ j : Fin 64, o1 + j.val < 768) (s : Fin 512) (j : Fin 64) (hj : 64 + j.val < 128) :
    pairOf Q K V B o0 o1 h0 h1 (ix4 (0 : Fin 1) (0 : Fin 1) s ⟨64 + j.val, hj⟩)
      = headAt Q K V B (Ideal.ofBits .f32 0x3E000000#32) o1 ho1 (ix2 s j) := by
  unfold pairOf
  rw [pair_cast]
  refine (concat_cols_apply (n₁ := 64) [⟨S512x64, hd Q K V B o0 h0⟩, ⟨S512x64, hd Q K V B o1 h1⟩]
    concatenates_S512x64_S512x64_S512x128_d1 1 (by show (1 : ℕ) < 2; omega) (hd Q K V B o1 h1) rfl 64 rfl s j hj).trans ?_
  rw [hd_eq Q K V B o1 h1 ho1]

/-- The head function of slabs that are the projections at batch entry (p, b), with the bias row (m − 1) · 10000 of
    batch b, is the attention specification there. -/
theorem headAt_eq_attn (x : X4) (Wq : Mat 768 768) (bq : Row 768) (Wk : Mat 768 768) (bk : Row 768) (Wv : Mat 768 768) (bv : Row 768)
    (m : Msk) (p : Fin 4) (b : Fin 8) (Q K V : Mat 512 768) (B : Mat 1 512)
    (hQ : ∀ s col, Q (ix2 s col) = proj x Wq bq p b s col) (hK : ∀ s col, K (ix2 s col) = proj x Wk bk p b s col)
    (hV : ∀ s col, V (ix2 s col) = proj x Wv bv p b s col)
    (hB : ∀ t, B (ix2 (0 : Fin 1) t) = (m (ix2 b t) - Ideal.ofBits .f32 0x3F800000#32) * Ideal.ofBits .f32 0x461C4000#32)
    (off : ℕ) (hoff : ∀ j : Fin 64, off + j.val < 768) (hm : off % 64 = 0) (s : Fin 512) (j : Fin 64) :
    headAt Q K V B (Ideal.ofBits .f32 0x3E000000#32) off hoff (ix2 s j)
      = attn (adjMul m) x Wq bq Wk bk Wv bv (ix4 p b s ⟨off + j.val, hoff j⟩) := by
  have hc : ∀ w : Fin 64, hcol ⟨off + j.val, hoff j⟩ w = ⟨off + w.val, hoff w⟩ := fun w => Fin.ext (by
    show 64 * ((off + j.val) / 64) + w.val = off + w.val
    have := j.isLt
    omega)
  unfold headAt attn
  refine Finset.sum_congr rfl fun t _ => ?_
  show smax (fun t' => (∑ w : Fin 64, Q (ix2 s ⟨off + w.val, hoff w⟩) * K (ix2 t' ⟨off + w.val, hoff w⟩)) * Ideal.ofBits .f32 0x3E000000#32
        + B (ix2 (0 : Fin 1) t')) t * V (ix2 t ⟨off + j.val, hoff j⟩)
    = smax (fun t' => adjMul m (∑ w : Fin 64, proj x Wq bq p b s (hcol ⟨off + j.val, hoff j⟩ w)
        * proj x Wk bk p b t' (hcol ⟨off + j.val, hoff j⟩ w)) b t') t * proj x Wv bv p b t ⟨off + j.val, hoff j⟩
  rw [hV]
  refine congrArg (fun f => smax f t * proj x Wv bv p b t ⟨off + j.val, hoff j⟩) (funext fun t' => ?_)
  unfold adjMul
  rw [hB]
  refine congrArg (fun r => r * Ideal.ofBits .f32 0x3E000000#32
    + (m (ix2 b t') - Ideal.ofBits .f32 0x3F800000#32) * Ideal.ofBits .f32 0x461C4000#32) (Finset.sum_congr rfl fun w _ => ?_)
  rw [hQ, hK, hc]

end Cert.KBlock

end
-- ==== Proof.KernelSlabs.lean ====
/-
  The three slabs and the bias row of the kernel's body, entry by entry.

  The query and key slabs are the two halves of the columns of one affine layer of the x block; the value slab is an
  affine layer of its own. When the x block holds batch entry (p, b) of x, the weight matrices hold the transposed
  weights (queries and keys side by side) and the bias rows hold the biases (queries and keys end to end), an entry of
  a slab is the corresponding projection of x at (p, b).
-/
import proofs.«129219_j87170656239755_2_alg».proof.Proof.KernelBlock

noncomputable section

open scoped BigOperators

namespace Cert.KBlock

open Cert.KernelIdeal Cert.KernelIdeal.Gen Cert.KHead Cert.KOps Cert.Dense Cert.Attention Cert.Mha Cert.MhaSpec
open Idealize.ShloMosaic Idealize.ShloMosaic.ValueIdx

/-- The x block read as a matrix: the two unit axes dropped. -/
theorem xblock_cast (x0 : Vec Ideal S1x1x512x768 .f32) (s : Fin 512) (d : Fin 768) :
    shapeCast S512x768 x0 shapeCasts_S1x1x512x768_S512x768 (ix2 s d) = x0 (ix4 (0 : Fin 1) (0 : Fin 1) s d) :=
  shapeCast_apply x0 shapeCasts_S1x1x512x768_S512x768 (ix2 s d) (ix4 (0 : Fin 1) (0 : Fin 1) s d) (by
    rw [Shape.rowMajor_val_two, Shape.rowMajor_val_four]
    show (((0 : ℕ) * 1 + 0) * 512 + s.val) * 768 + d.val = s.val * 768 + d.val
    omega)

/-- An affine layer of the block with transposed weights in the columns σ names is the projection. -/
theorem slab_entry {N : ℕ} (X : Mat 512 768) (W : Mat 768 N) (bias : Mat 1 N) (x : X4) (Wt : Mat 768 768) (bt : Row 768)
    (p : Fin 4) (b : Fin 8) (σ : Fin 768 → Fin N) (hX : ∀ s d, X (ix2 s d) = x (ix4 p b s d))
    (hW : ∀ d col, W (ix2 d (σ col)) = Wt (ix2 col d)) (hb : ∀ col, bias (ix2 (0 : Fin 1) (σ col)) = bt (ix1 col))
    (s : Fin 512) (col : Fin 768) : affine2 X W bias (ix2 s (σ col)) = proj x Wt bt p b s col := by
  show mm X W (ix2 s (σ col)) + bias (ix2 (0 : Fin 1) (σ col)) = (∑ d : Fin 768, x (ix4 p b s d) * Wt (ix2 col d)) + bt (ix1 col)
  rw [hb]
  refine congrArg (· + bt (ix1 col)) ?_
  unfold mm
  exact Finset.sum_congr rfl fun k _ => by
    show X (ix2 s k) * W (ix2 k (σ col)) = _
    rw [hX, hW]

/-- Column col of the left half of a 1536-column array. -/
def lcol (col : Fin 768) : Fin 1536 := ⟨0 + col.val, by have := col.isLt; omega⟩
/-- Column col of the right half. -/
def rcol (col : Fin 768) : Fin 1536 := ⟨768 + col.val, by have := col.isLt; omega⟩

theorem Q_entry (x0 : Vec Ideal S1x1x512x768 .f32) (x1 : Vec Ideal S768x1536 .f32) (x2 : Vec Ideal S1x1536 .f32) (x : X4)
    (Wq : Mat 768 768) (bq : Row 768) (p : Fin 4) (b : Fin 8)
    (hx : ∀ s d, x0 (ix4 (0 : Fin 1) (0 : Fin 1) s d) = x (ix4 p b s d))
    (hW : ∀ d col, x1 (ix2 d (lcol col)) = Wq (ix2 col d)) (hb : ∀ col, x2 (ix2 (0 : Fin 1) (lcol col)) = bq (ix1 col))
    (s : Fin 512) (col : Fin 768) : k0_pay4 x0 x1 x2 (ix2 s col) = proj x Wq bq p b s col := by
  unfold k0_pay4 k0_pay3 k0_pay2
  dsimp only
  rw [slice_cols_apply _ 0 slices_S512x1536_o0_0_S512x768 s col (lcol col).isLt, shapeCast_self, shapeCast_self, dot_qk,
    addf_matmul_broadcastTo]
  exact slab_entry _ x1 x2 x Wq bq p b lcol (fun s d => (xblock_cast x0 s d).trans (hx s d)) hW hb s col

theorem K_entry (x0 : Vec Ideal S1x1x512x768 .f32) (x1 : Vec Ideal S768x1536 .f32) (x2 : Vec Ideal S1x1536 .f32) (x : X4)
    (Wk : Mat 768 768) (bk : Row 768) (p : Fin 4) (b : Fin 8)
    (hx : ∀ s d, x0 (ix4 (0 : Fin 1) (0 : Fin 1) s d) = x (ix4 p b s d))
    (hW : ∀ d col, x1 (ix2 d (rcol col)) = Wk (ix2 col d)) (hb : ∀ col, x2 (ix2 (0 : Fin 1) (rcol col)) = bk (ix1 col))
    (s : Fin 512) (col : Fin 768) : k0_pay5 x0 x1 x2 (ix2 s col) = proj x Wk bk p b s col := by
  unfold k0_pay5 k0_pay3 k0_pay2
  dsimp only
  rw [slice_cols_apply _ 768 slices_S512x1536_o0_768_S512x768 s col (rcol col).isLt, shapeCast_self, shapeCast_self, dot_qk,
    addf_matmul_broadcastTo]
  exact slab_entry _ x1 x2 x Wk bk p b rcol (fun s d => (xblock_cast x0 s d).trans (hx s d)) hW hb s col

theorem V_entry (x0 : Vec Ideal S1x1x512x768 .f32) (x3 : Vec Ideal S768x768 .bf16) (x4 : Vec Ideal S1x768 .f32) (x : X4)
    (Wv : Mat 768 768) (bv : Row 768) (p : Fin 4) (b : Fin 8)
    (hx : ∀ s d, x0 (ix4 (0 : Fin 1) (0 : Fin 1) s d) = x (ix4 p b s d))
    (hW : ∀ d col, x3 (ix2 d col) = Wv (ix2 col d)) (hb : ∀ col, x4 (ix2 (0 : Fin 1) col) = bv (ix1 col))
    (s : Fin 512) (col : Fin 768) : k0_pay6 x0 x3 x4 (ix2 s col) = proj x Wv bv p b s col := by
  unfold k0_pay6 k0_pay2
  dsimp only
  simp only [truncf_id]
  rw [shapeCast_self, shapeCast_self, dot_v, addf_matmul_broadcastTo]
  exact slab_entry _ x3 x4 x Wv bv p b id (fun s d => (xblock_cast x0 s d).trans (hx s d)) hW hb s col

/-- The bias row cast to a vector and back is the row. -/
theorem B_entry (xb : Vec Ideal S1x512 .f32) (t : Fin 512) : k0_pay7 xb (ix2 (0 : Fin 1) t) = xb (ix2 (0 : Fin 1) t) := by
  unfold k0_pay7
  rw [shapeCast_shapeCast]

/-- What the body reads of one batch entry: the x block holds entry (p, b) of x, the weights and biases are the
    arguments' in the kernel's layout, the bias row is (m − 1) · 10000 at batch b. -/
structure BlockOf (x : X4) (Wq : Mat 768 768) (bq : Row 768) (Wk : Mat 768 768) (bk : Row 768) (Wv : Mat 768 768) (bv : Row 768)
    (m : Msk) (p : Fin 4) (b : Fin 8) (x0 : Vec Ideal S1x1x512x768 .f32) (x1 : Vec Ideal S768x1536 .f32) (x2 : Vec Ideal S1x1536 .f32)
    (x3 : Vec Ideal S768x768 .bf16) (x4 : Vec Ideal S1x768 .f32) (xb : Vec Ideal S1x512 .f32) : Prop where
  hx : ∀ s d, x0 (ix4 (0 : Fin 1) (0 : Fin 1) s d) = x (ix4 p b s d)
  hWq : ∀ d col, x1 (ix2 d (lcol col)) = Wq (ix2 col d)
  hWk : ∀ d col, x1 (ix2 d (rcol col)) = Wk (ix2 col d)
  hbq : ∀ col, x2 (ix2 (0 : Fin 1) (lcol col)) = bq (ix1 col)
  hbk : ∀ col, x2 (ix2 (0 : Fin 1) (rcol col)) = bk (ix1 col)
  hWv : ∀ d col, x3 (ix2 d col) = Wv (ix2 col d)
  hbv : ∀ col, x4 (ix2 (0 : Fin 1) col) = bv (ix1 col)
  hB : ∀ t, xb (ix2 (0 : Fin 1) t) = (m (ix2 b t) - Ideal.ofBits .f32 0x3F800000#32) * Ideal.ofBits .f32 0x461C4000#32

/-- A stored pair of heads, read at row s and column c of the pair, is the specification at column o0 + c. -/
theorem pair_piece {x : X4} {Wq : Mat 768 768} {bq : Row 768} {Wk : Mat 768 768} {bk : Row 768} {Wv : Mat 768 768} {bv : Row 768}
    {m : Msk} {p : Fin 4} {b : Fin 8} {x0 : Vec Ideal S1x1x512x768 .f32} {x1 : Vec Ideal S768x1536 .f32} {x2 : Vec Ideal S1x1536 .f32}
    {x3 : Vec Ideal S768x768 .bf16} {x4 : Vec Ideal S1x768 .f32} {xb : Vec Ideal S1x512 .f32}
    (H : BlockOf x Wq bq Wk bk Wv bv m p b x0 x1 x2 x3 x4 xb) (o0 o1 : ℕ) (h0 : S512x768.Slices ![0, o0] S512x64)
    (h1 : S512x768.Slices ![0, o1] S512x64) (ho : o1 = o0 + 64) (hm : o0 % 128 = 0) (hle : o0 + 128 ≤ 768) (s : Fin 512) (c : Fin 128)
    (hc : o0 + c.val < 768) :
    pairOf (k0_pay4 x0 x1 x2) (k0_pay5 x0 x1 x2) (k0_pay6 x0 x3 x4) (k0_pay7 xb) o0 o1 h0 h1 (ix4 (0 : Fin 1) (0 : Fin 1) s c)
      = attn (adjMul m) x Wq bq Wk bk Wv bv (ix4 p b s ⟨o0 + c.val, hc⟩) := by
  subst ho
  have hQ := Q_entry x0 x1 x2 x Wq bq p b H.hx H.hWq H.hbq
  have hK := K_entry x0 x1 x2 x Wk bk p b H.hx H.hWk H.hbk
  have hV := V_entry x0 x3 x4 x Wv bv p b H.hx H.hWv H.hbv
  have hB : ∀ t, k0_pay7 xb (ix2 (0 : Fin 1) t) = (m (ix2 b t) - Ideal.ofBits .f32 0x3F800000#32) * Ideal.ofBits .f32 0x461C4000#32 :=
    fun t => (B_entry xb t).trans (H.hB t)
  by_cases hlt : c.val < 64
  · obtain ⟨j, rfl⟩ : ∃ j : Fin 64, c = ⟨0 + j.val, Nat.lt_of_lt_of_le (Nat.add_lt_add_left j.isLt 0) (by decide)⟩ :=
      ⟨⟨c.val, hlt⟩, Fin.ext (Nat.zero_add _).symm⟩
    have ho0 : ∀ j : Fin 64, o0 + j.val < 768 := fun j => by have := j.isLt; omega
    rw [pair_left _ _ _ _ o0 (o0 + 64) h0 h1 ho0 s j,
      headAt_eq_attn x Wq bq Wk bk Wv bv m p b _ _ _ _ hQ hK hV hB o0 ho0 (by omega) s j]
    exact congrArg (attn (adjMul m) x Wq bq Wk bk Wv bv) (congrArg (ix4 p b s) (Fin.ext (by
      show o0 + j.val = o0 + (0 + j.val)
      omega)))
  · obtain ⟨j, rfl⟩ : ∃ j : Fin 64, c = ⟨64 + j.val, Nat.lt_of_lt_of_le (Nat.add_lt_add_left j.isLt 64) (by decide)⟩ :=
      ⟨⟨c.val - 64, by have := c.isLt; omega⟩, Fin.ext (by show c.val = 64 + (c.val - 64); omega)⟩
    have ho1 : ∀ j : Fin 64, o0 + 64 + j.val < 768 := fun j => by have := j.isLt; omega
    rw [pair_right _ _ _ _ o0 (o0 + 64) h0 h1 ho1 s j,
      headAt_eq_attn x Wq bq Wk bk Wv bv m p b _ _ _ _ hQ hK hV hB (o0 + 64) ho1 (by omega) s j]
    exact congrArg (attn (adjMul m) x Wq bq Wk bk Wv bv) (congrArg (ix4 p b s) (Fin.ext (by
      show o0 + 64 + j.val = o0 + (64 + j.val)
      omega)))

end Cert.KBlock

end
-- ==== Proof.HostGlue.lean ====
/-
  The arrays the kernel's windows read, as the host operations before the call leave them.

  The fused weight matrix is the two transposed weight matrices side by side, the fused bias row the two biases end to
  end as a one-row matrix, the value weights the transposed matrix, the value bias a one-row matrix, and the mask bias
  is (m − 1) · 10000 of the mask read as floats.
-/
import proofs.«129219_j87170656239755_2_alg».proof.Proof.Gen.KernelIdeal.Frame
import proofs.«129219_j87170656239755_2_alg».proof.Proof.KernelSlabs
import Idealize.ShloMosaic.Lib.StableHlo.Run

noncomputable section

namespace Cert.KGlue

open Cert.KernelIdeal Cert.KernelIdeal.Gen Cert.KBlock Cert.Dense Cert.Attention Cert.Mha Cert.MhaSpec
open Idealize.ShloMosaic Idealize.ShloMosaic.TcCoe Idealize.ShloMosaic.ValueIdx Idealize.ShloMosaic.StableHlo
open Idealize.SL.Sem

variable (m : (ℓ : Loc nD τ sig) → Buf (Elt Ideal) ℓ)

theorem V4_eq (c : Dev nD) : (V m c main_v4 : S768x1536.Idx → EReal)
    = concatenate S768x1536 1 [⟨S768x768, transpose S768x768 [1, 0] (m ((c : Thread nD τ).loc main_arg1)) transposes_S768x768_S768x768_1_0⟩,
        ⟨S768x768, transpose S768x768 [1, 0] (m ((c : Thread nD τ).loc main_arg3)) transposes_S768x768_S768x768_1_0⟩]
        concatenates_S768x768_S768x768_S768x1536_d1 := by
  dsimp only [V, hostOps0]; after_results

theorem V6_eq (c : Dev nD) : (V m c main_v6 : S1x1536.Idx → EReal)
    = shapeCast S1x1536 (concatenate S1536 0 [⟨S768, m ((c : Thread nD τ).loc main_arg2)⟩, ⟨S768, m ((c : Thread nD τ).loc main_arg4)⟩]
        concatenates_S768_S768_S1536_d0) shapeCasts_S1536_S1x1536 := by
  dsimp only [V, hostOps0]; after_results; rfl

theorem V3_eq (c : Dev nD) : (V m c main_v3 : S768x768.Idx → EReal)
    = transpose S768x768 [1, 0] (m ((c : Thread nD τ).loc main_arg5)) transposes_S768x768_S768x768_1_0 := by
  dsimp only [V, hostOps0]; after_results; rfl

theorem V7_eq (c : Dev nD) : (V m c main_v7 : S1x768.Idx → EReal)
    = shapeCast S1x768 (m ((c : Thread nD τ).loc main_arg6)) shapeCasts_S768_S1x768 := by
  dsimp only [V, hostOps0]; after_results; rfl

theorem V12_eq (c : Dev nD) : (V m c main_v12 : S8x512.Idx → EReal)
    = mulf (subf (sitofp (F := Ideal) .f32 (m ((c : Thread nD τ).loc main_arg7)))
        (broadcastInDim S8x512 ![] bcast_S_S8x512 (constant (F := Ideal) S_ .f32 0x3F800000#32)))
        (broadcastInDim S8x512 ![] bcast_S_S8x512 (constant (F := Ideal) S_ .f32 0x461C4000#32)) := by
  dsimp only [V, hostOps0]; after_results

/-- The fused weights at (d, left column col): the query weights at (col, d). -/
theorem Wq_entry (c : Dev nD) (d col : Fin 768) : V m c main_v4 (ix2 d (lcol col)) = m ((c : Thread nD τ).loc main_arg1) (ix2 col d) :=
  (congrFun (V4_eq m c) _).trans ((concat_cols_apply (n₁ := 768)
    [⟨S768x768, transpose S768x768 [1, 0] (m ((c : Thread nD τ).loc main_arg1)) transposes_S768x768_S768x768_1_0⟩,
      ⟨S768x768, transpose S768x768 [1, 0] (m ((c : Thread nD τ).loc main_arg3)) transposes_S768x768_S768x768_1_0⟩]
    concatenates_S768x768_S768x768_S768x1536_d1 0 (by show (0 : ℕ) < 2; omega)
    (transpose S768x768 [1, 0] (m ((c : Thread nD τ).loc main_arg1)) transposes_S768x768_S768x768_1_0) rfl 0 rfl d col (lcol col).isLt).trans
    (transpose_swap_apply _ _ d col))

/-- The fused weights at (d, right column col): the key weights at (col, d). -/
theorem Wk_entry (c : Dev nD) (d col : Fin 768) : V m c main_v4 (ix2 d (rcol col)) = m ((c : Thread nD τ).loc main_arg3) (ix2 col d) :=
  (congrFun (V4_eq m c) _).trans ((concat_cols_apply (n₁ := 768)
    [⟨S768x768, transpose S768x768 [1, 0] (m ((c : Thread nD τ).loc main_arg1)) transposes_S768x768_S768x768_1_0⟩,
      ⟨S768x768, transpose S768x768 [1, 0] (m ((c : Thread nD τ).loc main_arg3)) transposes_S768x768_S768x768_1_0⟩]
    concatenates_S768x768_S768x768_S768x1536_d1 1 (by show (1 : ℕ) < 2; omega)
    (transpose S768x768 [1, 0] (m ((c : Thread nD τ).loc main_arg3)) transposes_S768x768_S768x768_1_0) rfl 768 rfl d col (rcol col).isLt).trans
    (transpose_swap_apply _ _ d col))

theorem bq_entry (c : Dev nD) (col : Fin 768) : V m c main_v6 (ix2 (0 : Fin 1) (lcol col)) = m ((c : Thread nD τ).loc main_arg2) (ix1 col) :=
  (congrFun (V6_eq m c) _).trans ((row_of_vec_apply _ shapeCasts_S1536_S1x1536 (lcol col)).trans
    (concat_vec_apply (n₁ := 768) [⟨S768, m ((c : Thread nD τ).loc main_arg2)⟩, ⟨S768, m ((c : Thread nD τ).loc main_arg4)⟩] concatenates_S768_S768_S1536_d0 0
      (by show (0 : ℕ) < 2; omega) (m ((c : Thread nD τ).loc main_arg2)) rfl 0 rfl col (lcol col).isLt))

theorem bk_entry (c : Dev nD) (col : Fin 768) : V m c main_v6 (ix2 (0 : Fin 1) (rcol col)) = m ((c : Thread nD τ).loc main_arg4) (ix1 col) :=
  (congrFun (V6_eq m c) _).trans ((row_of_vec_apply _ shapeCasts_S1536_S1x1536 (rcol col)).trans
    (concat_vec_apply (n₁ := 768) [⟨S768, m ((c : Thread nD τ).loc main_arg2)⟩, ⟨S768, m ((c : Thread nD τ).loc main_arg4)⟩] concatenates_S768_S768_S1536_d0 1
      (by show (1 : ℕ) < 2; omega) (m ((c : Thread nD τ).loc main_arg4)) rfl 768 rfl col (rcol col).isLt))

theorem Wv_entry (c : Dev nD) (d col : Fin 768) : V m c main_v3 (ix2 d col) = m ((c : Thread nD τ).loc main_arg5) (ix2 col d) :=
  (congrFun (V3_eq m c) _).trans (transpose_swap_apply _ _ d col)

theorem bv_entry (c : Dev nD) (col : Fin 768) : V m c main_v7 (ix2 (0 : Fin 1) col) = m ((c : Thread nD τ).loc main_arg6) (ix1 col) :=
  (congrFun (V7_eq m c) _).trans (row_of_vec_apply _ shapeCasts_S768_S1x768 col)

/-- The mask bias at (b, t): (m − 1) · 10000 of the mask value read as a float. -/
theorem bias_entry (c : Dev nD) (b : Fin 8) (t : Fin 512) : V m c main_v12 (ix2 b t)
    = ((sitofp (F := Ideal) .f32 (m ((c : Thread nD τ).loc main_arg7))) (ix2 b t) - Ideal.ofBits .f32 0x3F800000#32) * Ideal.ofBits .f32 0x461C4000#32 := by
  refine (congrFun (V12_eq m c) _).trans ?_
  show ((sitofp (F := Ideal) .f32 (m ((c : Thread nD τ).loc main_arg7))) (ix2 b t) - broadcastInDim S8x512 ![] bcast_S_S8x512 (constant (F := Ideal) S_ .f32 0x3F800000#32) (ix2 b t))
      * broadcastInDim S8x512 ![] bcast_S_S8x512 (constant (F := Ideal) S_ .f32 0x461C4000#32) (ix2 b t) = _
  rw [broadcastInDim_apply ![] bcast_S_S8x512 _ (ix2 b t) ix0 (fun ax => ax.elim0),
    broadcastInDim_apply ![] bcast_S_S8x512 _ (ix2 b t) ix0 (fun ax => ax.elim0)]
  rfl

end Cert.KGlue

end
-- ==== Proof.KernelPiece.lean ====
/-
  What one grid point leaves in the output's staging buffer.

  The body's six stores tile the block along the columns, each writing a pair of heads; every store's payload is
  the specification at batch entry (p, b) restricted to its 128 columns, so the buffer, read back, is the
  specification at (p, b) on the whole block.
-/
import proofs.«129219_j87170656239755_2_alg».proof.Proof.Gen.KernelIdeal.Frame
import proofs.«129219_j87170656239755_2_alg».proof.Proof.KernelSlabs

set_option maxRecDepth 16384

noncomputable section

namespace Cert.KBlock

open Cert.KernelIdeal Cert.KernelIdeal.Gen Cert.KHead Cert.Dense Cert.Mha Cert.MhaSpec
open Idealize.ShloMosaic Idealize.ShloMosaic.TcCoe Idealize.ShloMosaic.Tactic Idealize.ShloMosaic.ValueIdx
open Idealize.SL Idealize.SL.Sem

theorem hz4 : (![0, 0, 0, 0] : Fin 4 → Nat) = fun _ => 0 := funext fun a => by fin_cases a <;> rfl
theorem hz2 : (![0, 0] : Fin 2 → Nat) = fun _ => 0 := funext fun a => by fin_cases a <;> rfl

/-- A block index of a 128-column store at column offset o, placed in the 768-column block. -/
theorem emb_cols (o : ℕ) (inb : ∀ a, (![0, 0, 0, o] : Fin 4 → ℕ) a + (![1, 1, 512, 128] : Fin 4 → ℕ) a ≤ S1x1x512x768.size a)
    (y : (Rect.unit (s := S1x1x512x768) ![0, 0, 0, o] ![1, 1, 512, 128] inb).shape.Idx) :
    ((Rect.unit (s := S1x1x512x768) ![0, 0, 0, o] ![1, 1, 512, 128] inb).emb y 2).val = (y 2).val
      ∧ ((Rect.unit (s := S1x1x512x768) ![0, 0, 0, o] ![1, 1, 512, 128] inb).emb y 3).val = o + (y 3).val := by
  constructor
  · show 0 + 1 * (y 2).val = (y 2).val
    omega
  · show o + 1 * (y 3).val = o + (y 3).val
    omega

/-- The specification at batch entry (p, b), as a function of the block index. -/
def blockSpec (x : X4) (Wq : Mat 768 768) (bq : Row 768) (Wk : Mat 768 768) (bk : Row 768) (Wv : Mat 768 768) (bv : Row 768)
    (m : Msk) (p : Fin 4) (b : Fin 8) : S1x1x512x768.Idx → EReal := fun y =>
  attn (adjMul m) x Wq bq Wk bk Wv bv (ix4 p b ⟨(y 2).val, (y 2).isLt⟩ ⟨(y 3).val, (y 3).isLt⟩)

/-- One store's payload is the specification on its columns. -/
theorem piece_spec {x : X4} {Wq : Mat 768 768} {bq : Row 768} {Wk : Mat 768 768} {bk : Row 768} {Wv : Mat 768 768} {bv : Row 768}
    {m : Msk} {p : Fin 4} {b : Fin 8} {x0 : Vec Ideal S1x1x512x768 .f32} {x1 : Vec Ideal S768x1536 .f32} {x2 : Vec Ideal S1x1536 .f32}
    {x3 : Vec Ideal S768x768 .bf16} {x4 : Vec Ideal S1x768 .f32} {xb : Vec Ideal S1x512 .f32}
    (H : BlockOf x Wq bq Wk bk Wv bv m p b x0 x1 x2 x3 x4 xb) (o0 o1 : ℕ) (h0 : S512x768.Slices ![0, o0] S512x64)
    (h1 : S512x768.Slices ![0, o1] S512x64) (ho : o1 = o0 + 64) (hm : o0 % 128 = 0) (hle : o0 + 128 ≤ 768)
    (inb : ∀ a, (![0, 0, 0, o0] : Fin 4 → ℕ) a + (![1, 1, 512, 128] : Fin 4 → ℕ) a ≤ S1x1x512x768.size a)
    (y : (Rect.unit (s := S1x1x512x768) ![0, 0, 0, o0] ![1, 1, 512, 128] inb).shape.Idx) :
    pairOf (k0_pay4 x0 x1 x2) (k0_pay5 x0 x1 x2) (k0_pay6 x0 x3 x4) (k0_pay7 xb) o0 o1 h0 h1 y
      = blockSpec x Wq bq Wk bk Wv bv m p b ((Rect.unit (s := S1x1x512x768) ![0, 0, 0, o0] ![1, 1, 512, 128] inb).emb y) := by
  obtain ⟨e2, e3⟩ := emb_cols o0 inb y
  have hy : y = ix4 (0 : Fin 1) (0 : Fin 1) (⟨(y 2).val, (y 2).isLt⟩ : Fin 512) (⟨(y 3).val, (y 3).isLt⟩ : Fin 128) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  have hc : o0 + (y 3).val < 768 := by have : (y 3).val < 128 := (y 3).isLt; omega
  rw [hy, pair_piece H o0 o1 h0 h1 ho hm hle ⟨(y 2).val, (y 2).isLt⟩ ⟨(y 3).val, (y 3).isLt⟩ hc, ← hy]
  unfold blockSpec
  exact congrArg (attn (adjMul m) x Wq bq Wk bk Wv bv) (congr (congrArg (ix4 p b) (Fin.ext e2.symm)) (Fin.ext e3.symm))

end Cert.KBlock

end
-- ==== Proof.KernelValue.lean ====
/-
  The kernel's result array as one function of its arguments.

  At grid point (p, b) the body leaves in the output's staging buffer the attention specification at batch entry
  (p, b) — every store's payload is the specification on its columns, and the stores tile the block —; the point's
  write-back puts it at block (p, b) of the result, the 32 blocks tile the result, so the result array ends holding the
  specification of the arguments, with the score adjustment "times 1/8 plus (m − 1) · 10000".
-/
import proofs.«129219_j87170656239755_2_alg».proof.Proof.Gen.KernelIdeal.Value
import proofs.«129219_j87170656239755_2_alg».proof.Proof.HostGlue
import proofs.«129219_j87170656239755_2_alg».proof.Proof.KernelPiece

set_option maxRecDepth 16384

noncomputable section

namespace Cert.KValue

open Cert.KernelIdeal Cert.KernelIdeal.Gen Cert.KernelIdeal.Value Cert.KHead Cert.KBlock Cert.KGlue Cert.Dense Cert.Mha Cert.MhaSpec
open Idealize.ShloMosaic Idealize.ShloMosaic.TcCoe Idealize.ShloMosaic.Tactic Idealize.ShloMosaic.ValueIdx
open Idealize.SL Idealize.SL.Sem
open Idealize.ShloMosaic.Pipeline (Dat)

/-- What the output's staging buffer holds after the body: the specification at batch entry (p, b). -/
theorem out_eq (c : Dev nD) (i : grid0.Coords) (arg2 : Memref sig .tc .vmem S1x1x512x768 .f32) (harg2 : arg2.IsWhole) (arg3 : Memref sig .tc .vmem S768x1536 .f32) (harg3 : arg3.IsWhole) (arg4 : Memref sig .tc .vmem S1x1536 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S8x512 .f32) (harg7 : arg7.IsWhole) (arg8 : Memref sig .tc .vmem S1x1x512x768 .f32) (harg8 : arg8.IsWhole)
    (x0 : Vec Ideal S1x1x512x768 .f32) (x1 : Vec Ideal S768x1536 .f32) (x2 : Vec Ideal S1x1536 .f32) (x3 : Vec Ideal S768x768 .bf16) (x4 : Vec Ideal S1x768 .f32) (x5 : Vec Ideal S8x512 .f32)
    {x : X4} {Wq : Mat 768 768} {bq : Row 768} {Wk : Mat 768 768} {bk : Row 768} {Wv : Mat 768 768} {bv : Row 768}
    {m : Msk} {p : Fin 4} {b : Fin 8}
    (H : BlockOf x Wq bq Wk bk Wv bv m p b x0 x1 x2 x3 x4
      (View.ld x5 (Rect.unit (s := S8x512) (k0_off1 i) S1x512.size (k0_off1_inb i)))) :
    out0_A_6 (F := Ideal) c i arg2 harg2 arg3 harg3 arg4 harg4 arg5 harg5 arg6 harg6 arg7 harg7 arg8 harg8 x0 x1 x2 x3 x4 x5 = blockSpec x Wq bq Wk bk Wv bv m p b := by
  unfold out0_A_6
  rw [View.read_writes_eq_canon _ _ _ (cover0_A_6 c i arg2 harg2 arg3 harg3 arg4 harg4 arg5 harg5 arg6 harg6 arg7 harg7 arg8 harg8 x0 x1 x2 x3 x4 x5)]
  funext y
  refine View.canon_apply_of_pieces (blockSpec x Wq bq Wk bk Wv bv m p b) _ ?_ y (cover0_A_6 c i arg2 harg2 arg3 harg3 arg4 harg4 arg5 harg5 arg6 harg6 arg7 harg7 arg8 harg8 x0 x1 x2 x3 x4 x5 y)
  unfold kernelRun0_A
  dsimp only
  sl_unfold_words
  simp only [View.readAt_eq_ld, harg2.read_unread, harg3.read_unread, harg4.read_unread, harg5.read_unread, harg6.read_unread,
    harg7.read_unread, View.ld_unit_zero (S := S1x1x512x768) hz4, View.ld_unit_zero (S := S768x1536) hz2,
    View.ld_unit_zero (S := S1x1536) hz2, View.ld_unit_zero (S := S768x768) hz2, View.ld_unit_zero (S := S1x768) hz2]
  intro pc hpc
  rcases List.mem_cons.mp hpc with rfl | hpc
  · intro xx
    exact (congrFun (pair5 _ _ _ _) xx).trans (piece_spec H 640 704 _ _ rfl (by decide) (by decide) inb_S1x1x512x768_S1x1x512x128_0_0_0_640 xx)
  rcases List.mem_cons.mp hpc with rfl | hpc
  · intro xx
    exact (congrFun (pair4 _ _ _ _) xx).trans (piece_spec H 512 576 _ _ rfl (by decide) (by decide) inb_S1x1x512x768_S1x1x512x128_0_0_0_512 xx)
  rcases List.mem_cons.mp hpc with rfl | hpc
  · intro xx
    exact (congrFun (pair3 _ _ _ _) xx).trans (piece_spec H 384 448 _ _ rfl (by decide) (by decide) inb_S1x1x512x768_S1x1x512x128_0_0_0_384 xx)
  rcases List.mem_cons.mp hpc with rfl | hpc
  · intro xx
    exact (congrFun (pair2 _ _ _ _) xx).trans (piece_spec H 256 320 _ _ rfl (by decide) (by decide) inb_S1x1x512x768_S1x1x512x128_0_0_0_256 xx)
  rcases List.mem_cons.mp hpc with rfl | hpc
  · intro xx
    exact (congrFun (pair1 _ _ _ _) xx).trans (piece_spec H 128 192 _ _ rfl (by decide) (by decide) inb_S1x1x512x768_S1x1x512x128_0_0_0_128 xx)
  rcases List.mem_cons.mp hpc with rfl | hpc
  · intro xx
    exact (congrFun (pair0 _ _ _ _ _ _) xx).trans (piece_spec H 0 64 _ _ rfl (by decide) (by decide) inb_S1x1x512x768_S1x1x512x128_0_0_0_0 xx)
  · exact absurd hpc List.not_mem_nil

variable (m : (ℓ : Loc nD τ sig) → Buf (Elt Ideal) ℓ) (ρ : Dev nD → PrngReg)

/-- The result array as a function of the arguments on core c. -/
def G (c : Dev nD) : S4x8x512x768.Idx → EReal :=
  attn (adjMul (sitofp (F := Ideal) .f32 (m ((c : Thread nD τ).loc main_arg7)))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The printed index maps, decided over the 32 grid points: the x window and the output window move with the grid
    point, the other windows stay. -/
theorem idx_facts : ∀ t : Fin cfg0.N,
    win0_0.index t (0 : Fin 4) = (grid0.coords t 0).val ∧ win0_0.index t (1 : Fin 4) = (grid0.coords t 1).val
    ∧ win0_0.index t (2 : Fin 4) = 0 ∧ win0_0.index t (3 : Fin 4) = 0
    ∧ win0_6.index t (0 : Fin 4) = (grid0.coords t 0).val ∧ win0_6.index t (1 : Fin 4) = (grid0.coords t 1).val
    ∧ win0_6.index t (2 : Fin 4) = 0 ∧ win0_6.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every block of the result is some point's. -/
theorem idx_onto : ∀ (q0 : Fin 4) (q1 : Fin 8), ∃ t : Fin cfg0.N, win0_6.index t = ![q0.val, q1.val, 0, 0] :=
  (by decide +kernel : ∀ (q0 : Fin 4) (q1 : Fin 8), ∃ t : Fin grid0.N, win0_6.index t = ![q0.val, q1.val, 0, 0])

/-- What the body reads at point t is batch entry (p, b) of the arguments, p and b the point's coordinates. -/
theorem blockOf (c : Dev nD) (t : Fin cfg0.N) :
    BlockOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (sitofp (F := Ideal) .f32 (m ((c : Thread nD τ).loc main_arg7))) (grid0.coords t 0) (grid0.coords t 1)
      (iblk m c 0 t) (iblk m c 1 t) (iblk m c 2 t) (iblk m c 3 t) (iblk m c 4 t)
      (View.ld (iblk m c 5 t) (Rect.unit (s := S8x512) (k0_off1 (grid0.coords t)) S1x512.size (k0_off1_inb (grid0.coords t)))) := by
  obtain ⟨a0, a1, a2, a3, -, -, -, -, b0, b1, c0, c1, d0, d1, e0, e1, f0, f1⟩ := idx_facts t
  refine ⟨?_, ?_, ?_, ?_, ?_, ?_, ?_, ?_⟩
  · intro s d
    show V m c main_arg0 (((cfg0.win 0).blk t).view.emb (ix4 (0 : Fin 1) (0 : Fin 1) s d)) = _
    rw [V_main_arg0]
    refine congrArg (m ((c : Thread nD τ).loc main_arg0)) (funext fun a => Fin.ext ?_)
    match a with
    | ⟨0, _⟩ =>
      show win0_0.index t (0 : Fin 4) * 1 + 1 * 0 = (grid0.coords t 0).val
      omega
    | ⟨1, _⟩ =>
      show win0_0.index t (1 : Fin 4) * 1 + 1 * 0 = (grid0.coords t 1).val
      omega
    | ⟨2, _⟩ =>
      show win0_0.index t (2 : Fin 4) * 512 + 1 * s.val = s.val
      omega
    | ⟨3, _⟩ =>
      show win0_0.index t (3 : Fin 4) * 768 + 1 * d.val = d.val
      omega
  · intro d col
    show V m c main_v4 (((cfg0.win 1).blk t).view.emb (ix2 d (lcol col))) = _
    refine Eq.trans (congrArg (V m c main_v4) (funext fun a => Fin.ext ?_)) (Wq_entry m c d col)
    match a with
    | ⟨0, _⟩ =>
      show win0_1.index t (0 : Fin 2) * 768 + 1 * d.val = d.val
      omega
    | ⟨1, _⟩ =>
      show win0_1.index t (1 : Fin 2) * 1536 + 1 * (0 + col.val) = 0 + col.val
      omega
  · intro d col
    show V m c main_v4 (((cfg0.win 1).blk t).view.emb (ix2 d (rcol col))) = _
    refine Eq.trans (congrArg (V m c main_v4) (funext fun a => Fin.ext ?_)) (Wk_entry m c d col)
    match a with
    | ⟨0, _⟩ =>
      show win0_1.index t (0 : Fin 2) * 768 + 1 * d.val = d.val
      omega
    | ⟨1, _⟩ =>
      show win0_1.index t (1 : Fin 2) * 1536 + 1 * (768 + col.val) = 768 + col.val
      omega
  · intro col
    show V m c main_v6 (((cfg0.win 2).blk t).view.emb (ix2 (0 : Fin 1) (lcol col))) = _
    refine Eq.trans (congrArg (V m c main_v6) (funext fun a => Fin.ext ?_)) (bq_entry m c col)
    match a with
    | ⟨0, _⟩ =>
      show win0_2.index t (0 : Fin 2) * 1 + 1 * 0 = 0
      omega
    | ⟨1, _⟩ =>
      show win0_2.index t (1 : Fin 2) * 1536 + 1 * (0 + col.val) = 0 + col.val
      omega
  · intro col
    show V m c main_v6 (((cfg0.win 2).blk t).view.emb (ix2 (0 : Fin 1) (rcol col))) = _
    refine Eq.trans (congrArg (V m c main_v6) (funext fun a => Fin.ext ?_)) (bk_entry m c col)
    match a with
    | ⟨0, _⟩ =>
      show win0_2.index t (0 : Fin 2) * 1 + 1 * 0 = 0
      omega
    | ⟨1, _⟩ =>
      show win0_2.index t (1 : Fin 2) * 1536 + 1 * (768 + col.val) = 768 + col.val
      omega
  · intro d col
    show V m c main_v3 (((cfg0.win 3).blk t).view.emb (ix2 d col)) = _
    refine Eq.trans (congrArg (V m c main_v3) (funext fun a => Fin.ext ?_)) (Wv_entry m c d col)
    match a with
    | ⟨0, _⟩ =>
      show win0_3.index t (0 : Fin 2) * 768 + 1 * d.val = d.val
      omega
    | ⟨1, _⟩ =>
      show win0_3.index t (1 : Fin 2) * 768 + 1 * col.val = col.val
      omega
  · intro col
    show V m c main_v7 (((cfg0.win 4).blk t).view.emb (ix2 (0 : Fin 1) col)) = _
    refine Eq.trans (congrArg (V m c main_v7) (funext fun a => Fin.ext ?_)) (bv_entry m c col)
    match a with
    | ⟨0, _⟩ =>
      show win0_4.index t (0 : Fin 2) * 1 + 1 * 0 = 0
      omega
    | ⟨1, _⟩ =>
      show win0_4.index t (1 : Fin 2) * 768 + 1 * col.val = col.val
      omega
  · intro t'
    have hk0 : k0_off1 (grid0.coords t) 0 = (grid0.coords t 1).val := by rw [k0_off1_eq]; rfl
    have hk1 : k0_off1 (grid0.coords t) 1 = 0 := by rw [k0_off1_eq]; rfl
    show V m c main_v12 (((cfg0.win 5).blk t).view.emb
      ((Rect.unit (s := S8x512) (k0_off1 (grid0.coords t)) S1x512.size (k0_off1_inb (grid0.coords t))).emb (ix2 (0 : Fin 1) t'))) = _
    refine Eq.trans (congrArg (V m c main_v12) (funext fun a => Fin.ext ?_)) (bias_entry m c (grid0.coords t 1) t')
    match a with
    | ⟨0, _⟩ =>
      show win0_5.index t (0 : Fin 2) * 8 + 1 * (k0_off1 (grid0.coords t) 0 + 1 * 0) = (grid0.coords t 1).val
      omega
    | ⟨1, _⟩ =>
      show win0_5.index t (1 : Fin 2) * 512 + 1 * (k0_off1 (grid0.coords t) 1 + 1 * t'.val) = t'.val
      omega

/-- What point t writes back is block t of the specification of the arguments. -/
theorem flushed_eq (c : Dev nD) (t : Fin cfg0.N) :
    (dats m 0 c).flushed 6 t = ((cfg0.win 6).blk t).view.read (Elt Ideal) (G m c) := by
  rw [flushed6_A, out_eq _ _ _ _ _ _ _ _ _ _ _ _ _ _ _ _ _ _ _ _ _ _ (blockOf m c t)]
  obtain ⟨-, -, -, -, a0, a1, a2, a3, -⟩ := idx_facts t
  funext j
  show blockSpec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (sitofp (F := Ideal) .f32 (m ((c : Thread nD τ).loc main_arg7))) (grid0.coords t 0) (grid0.coords t 1) j = G m c (((cfg0.win 6).blk t).view.emb j)
  unfold blockSpec G
  refine congrArg (attn (adjMul (sitofp (F := Ideal) .f32 (m ((c : Thread nD τ).loc main_arg7)))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (funext fun a => Fin.ext ?_)
  match a with
  | ⟨0, _⟩ =>
    show (grid0.coords t 0).val = win0_6.index t (0 : Fin 4) * 1 + 1 * (j 0).val
    have : (j 0).val < 1 := (j 0).isLt
    omega
  | ⟨1, _⟩ =>
    show (grid0.coords t 1).val = win0_6.index t (1 : Fin 4) * 1 + 1 * (j 1).val
    have : (j 1).val < 1 := (j 1).isLt
    omega
  | ⟨2, _⟩ =>
    show (j 2).val = win0_6.index t (2 : Fin 4) * 512 + 1 * (j 2).val
    omega
  | ⟨3, _⟩ =>
    show (j 3).val = win0_6.index t (3 : Fin 4) * 768 + 1 * (j 3).val
    omega

/-- An index of the result is in point t's block iff each coordinate is in the block's range on its axis. -/
theorem mem_blk (t : Fin cfg0.N) (i : S4x8x512x768.Idx) :
    i ∈ ((cfg0.win 6).blk t).view.set ↔ ∀ a : Fin 4, win0_6.index t a * S1x1x512x768.size a ≤ (i a).val
      ∧ (i a).val < win0_6.index t a * S1x1x512x768.size a + S1x1x512x768.size a := by
  show i ∈ ((View.whole main_v13).slice (win0_6.rect t)).set ↔ _
  rw [View.set_slice_whole, Rect.mem_set_unit]
  exact Iff.rfl

/-- The 32 blocks cover the result: entry (p, b, s, e) is in the block of the point with coordinates (p, b). -/
theorem cover (i : S4x8x512x768.Idx) : ∃ t : Fin cfg0.N, (cfg0.win 6).flush t = true ∧ i ∈ ((cfg0.win 6).blk t).view.set := by
  obtain ⟨t, ht⟩ := idx_onto ⟨(i 0).val, (i 0).isLt⟩ ⟨(i 1).val, (i 1).isLt⟩
  have q0 : win0_6.index t (0 : Fin 4) = (i 0).val := congrFun ht 0
  have q1 : win0_6.index t (1 : Fin 4) = (i 1).val := congrFun ht 1
  have q2 : win0_6.index t (2 : Fin 4) = 0 := congrFun ht 2
  have q3 : win0_6.index t (3 : Fin 4) = 0 := congrFun ht 3
  have h2 : (i 2).val < 512 := (i 2).isLt
  have h3 : (i 3).val < 768 := (i 3).isLt
  refine ⟨t, flush0_6 t, ?_⟩
  rw [mem_blk]
  intro a
  match a with
  | ⟨0, _⟩ =>
    show win0_6.index t (0 : Fin 4) * 1 ≤ (i 0).val ∧ (i 0).val < win0_6.index t (0 : Fin 4) * 1 + 1
    omega
  | ⟨1, _⟩ =>
    show win0_6.index t (1 : Fin 4) * 1 ≤ (i 1).val ∧ (i 1).val < win0_6.index t (1 : Fin 4) * 1 + 1
    omega
  | ⟨2, _⟩ =>
    show win0_6.index t (2 : Fin 4) * 512 ≤ (i 2).val ∧ (i 2).val < win0_6.index t (2 : Fin 4) * 512 + 512
    omega
  | ⟨3, _⟩ =>
    show win0_6.index t (3 : Fin 4) * 768 ≤ (i 3).val ∧ (i 3).val < win0_6.index t (3 : Fin 4) * 768 + 768
    omega

/-- The result array after the run. -/
theorem final (c : Dev nD) : (dats m 0 c).arrAt 6 cfg0.N = G m c :=
  (dats m 0 c).arrAt_eq_of_cover 6 (G m c) (fun t _ => flushed_eq m c t) cover

/-- The kernel's run: the result is the specification of the arguments, the arguments unchanged. -/
theorem run : θ_run defs (onTc (τ := τ) (main (F := Ideal))) ⟨m, fun _ => 0, ρ⟩ fun r => ∀ c : Dev nD,
      r.2.mem ((c : Thread nD τ).loc main_v13) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KValue

end
-- ==== Proof.RefValue.lean ====
/-
  The reference's result on the extended reals is the attention specification with the score adjustment "divided by
  8, minus 10000 · (1 − m)".

  The reference projects the whole input three times, splits the columns into twelve heads of 64 (column e is head
  e / 64, lane e % 64), takes per head the inner products of query and key rows, adjusts them, takes the softmax over
  the keys (the row maximum folded from minus infinity and compared with minus infinity once more), multiplies with the
  value heads and lays the heads side by side again.
-/
import proofs.«129219_j87170656239755_2_alg».proof.Proof.Gen.ReferenceIdeal.Read
import proofs.«129219_j87170656239755_2_alg».proof.Proof.Spec

noncomputable section

open scoped BigOperators

namespace Cert.RefValue

open Cert.ReferenceIdeal Cert.ReferenceIdeal.Gen Cert.ReferenceIdeal.Read Cert.MhaSpec Cert.Mha Cert.Dense Cert.Gcn
open Idealize.ShloMosaic Idealize.ShloMosaic.ValueIdx

local macro "idx5" : tactic => `(tactic| (funext a; match a with | ⟨0, _⟩ => rfl | ⟨1, _⟩ => rfl | ⟨2, _⟩ => rfl | ⟨3, _⟩ => rfl | ⟨4, _⟩ => rfl))
local macro "idx4" : tactic => `(tactic| (funext a; match a with | ⟨0, _⟩ => rfl | ⟨1, _⟩ => rfl | ⟨2, _⟩ => rfl | ⟨3, _⟩ => rfl))
local macro "idx2" : tactic => `(tactic| (funext a; match a with | ⟨0, _⟩ => rfl | ⟨1, _⟩ => rfl))

/-- Column w of head h. -/
def colOf (h : Fin 12) (w : Fin 64) : Fin 768 := ⟨64 * h.val + w.val, by have := h.isLt; have := w.isLt; omega⟩
/-- The head of column e. -/
def headOf (e : Fin 768) : Fin 12 := ⟨e.val / 64, by have := e.isLt; omega⟩
/-- The lane of column e inside its head. -/
def laneOf (e : Fin 768) : Fin 64 := ⟨e.val % 64, Nat.mod_lt _ (by decide)⟩

theorem colOf_split (e : Fin 768) : colOf (headOf e) (laneOf e) = e :=
  Fin.ext (by show 64 * (e.val / 64) + e.val % 64 = e.val; omega)

theorem join_q (p : Fin 4) (b : Fin 8) (h : Fin 12) (s : Fin 512) (w : Fin 64) :
    idx_main_v12 (idx_main_v13 (ix5 p b h s w)) = ix4 p b s (colOf h w) := by
  funext a; apply Fin.ext
  have hp := p.isLt; have hb := b.isLt; have hh := h.isLt; have hs := s.isLt; have hw := w.isLt
  match a with
  | ⟨0, _⟩ =>
    show ((((p.val * 8 + b.val) * 512 + s.val) * 12 + h.val) * 64 + w.val) / 3145728 = p.val
    omega
  | ⟨1, _⟩ =>
    show ((((p.val * 8 + b.val) * 512 + s.val) * 12 + h.val) * 64 + w.val) / 393216 % 8 = b.val
    omega
  | ⟨2, _⟩ =>
    show ((((p.val * 8 + b.val) * 512 + s.val) * 12 + h.val) * 64 + w.val) / 768 % 512 = s.val
    omega
  | ⟨3, _⟩ =>
    show ((((p.val * 8 + b.val) * 512 + s.val) * 12 + h.val) * 64 + w.val) % 768 = 64 * h.val + w.val
    omega

/-- The query projection split into heads, at (p, b, h, s, w): the projection at column 64 · h + w. -/
theorem q_apply (x0 : (⟨S4x8x512x768, .f32⟩ : BufTy).Contents (Elt Ideal)) (x1 : (⟨S768x768, .f32⟩ : BufTy).Contents (Elt Ideal)) (x2 : (⟨S768, .f32⟩ : BufTy).Contents (Elt Ideal)) (p : Fin 4) (b : Fin 8) (h : Fin 12) (s : Fin 512) (w : Fin 64) :
    val_main_v13 (F := Ideal) x0 x1 x2 (ix5 p b h s w) = proj x0 x1 x2 p b s (colOf h w) := by
  rw [val_main_v13_apply, val_main_v12_apply, join_q, val_main_v3_apply, val_main_v0_apply, val_main_v2_apply, val_main_v1_apply]
  unfold proj
  refine congr (congrArg _ (Finset.sum_congr rfl fun k _ => ?_)) ?_
  · exact congr (congrArg _ (congrArg x0 (funext fun a => by
      match a with
      | ⟨0, _⟩ => rfl
      | ⟨1, _⟩ => rfl
      | ⟨2, _⟩ => rfl
      | ⟨3, _⟩ => rfl))) (congrArg x1 (funext fun a => by
      match a with
      | ⟨0, _⟩ => rfl
      | ⟨1, _⟩ => rfl))
  · exact congrArg x2 (funext fun a => by
      match a with
      | ⟨0, _⟩ => rfl)

theorem join_k (p : Fin 4) (b : Fin 8) (h : Fin 12) (s : Fin 512) (w : Fin 64) :
    idx_main_v14 (idx_main_v15 (ix5 p b h s w)) = ix4 p b s (colOf h w) := by
  funext a; apply Fin.ext
  have hp := p.isLt; have hb := b.isLt; have hh := h.isLt; have hs := s.isLt; have hw := w.isLt
  match a with
  | ⟨0, _⟩ =>
    show ((((p.val * 8 + b.val) * 512 + s.val) * 12 + h.val) * 64 + w.val) / 3145728 = p.val
    omega
  | ⟨1, _⟩ =>
    show ((((p.val * 8 + b.val) * 512 + s.val) * 12 + h.val) * 64 + w.val) / 393216 % 8 = b.val
    omega
  | ⟨2, _⟩ =>
    show ((((p.val * 8 + b.val) * 512 + s.val) * 12 + h.val) * 64 + w.val) / 768 % 512 = s.val
    omega
  | ⟨3, _⟩ =>
    show ((((p.val * 8 + b.val) * 512 + s.val) * 12 + h.val) * 64 + w.val) % 768 = 64 * h.val + w.val
    omega

/-- The key projection split into heads, at (p, b, h, s, w): the projection at column 64 · h + w. -/
theorem k_apply (x0 : (⟨S4x8x512x768, .f32⟩ : BufTy).Contents (Elt Ideal)) (x3 : (⟨S768x768, .f32⟩ : BufTy).Contents (Elt Ideal)) (x4 : (⟨S768, .f32⟩ : BufTy).Contents (Elt Ideal)) (p : Fin 4) (b : Fin 8) (h : Fin 12) (s : Fin 512) (w : Fin 64) :
    val_main_v15 (F := Ideal) x0 x3 x4 (ix5 p b h s w) = proj x0 x3 x4 p b s (colOf h w) := by
  rw [val_main_v15_apply, val_main_v14_apply, join_k, val_main_v7_apply, val_main_v4_apply, val_main_v6_apply, val_main_v5_apply]
  unfold proj
  refine congr (congrArg _ (Finset.sum_congr rfl fun k _ => ?_)) ?_
  · exact congr (congrArg _ (congrArg x0 (funext fun a => by
      match a with
      | ⟨0, _⟩ => rfl
      | ⟨1, _⟩ => rfl
      | ⟨2, _⟩ => rfl
      | ⟨3, _⟩ => rfl))) (congrArg x3 (funext fun a => by
      match a with
      | ⟨0, _⟩ => rfl
      | ⟨1, _⟩ => rfl))
  · exact congrArg x4 (funext fun a => by
      match a with
      | ⟨0, _⟩ => rfl)

theorem join_v (p : Fin 4) (b : Fin 8) (h : Fin 12) (s : Fin 512) (w : Fin 64) :
    idx_main_v16 (idx_main_v17 (ix5 p b h s w)) = ix4 p b s (colOf h w) := by
  funext a; apply Fin.ext
  have hp := p.isLt; have hb := b.isLt; have hh := h.isLt; have hs := s.isLt; have hw := w.isLt
  match a with
  | ⟨0, _⟩ =>
    show ((((p.val * 8 + b.val) * 512 + s.val) * 12 + h.val) * 64 + w.val) / 3145728 = p.val
    omega
  | ⟨1, _⟩ =>
    show ((((p.val * 8 + b.val) * 512 + s.val) * 12 + h.val) * 64 + w.val) / 393216 % 8 = b.val
    omega
  | ⟨2, _⟩ =>
    show ((((p.val * 8 + b.val) * 512 + s.val) * 12 + h.val) * 64 + w.val) / 768 % 512 = s.val
    omega
  | ⟨3, _⟩ =>
    show ((((p.val * 8 + b.val) * 512 + s.val) * 12 + h.val) * 64 + w.val) % 768 = 64 * h.val + w.val
    omega

/-- The value projection split into heads, at (p, b, h, s, w): the projection at column 64 · h + w. -/
theorem v_apply (x0 : (⟨S4x8x512x768, .f32⟩ : BufTy).Contents (Elt Ideal)) (x5 : (⟨S768x768, .f32⟩ : BufTy).Contents (Elt Ideal)) (x6 : (⟨S768, .f32⟩ : BufTy).Contents (Elt Ideal)) (p : Fin 4) (b : Fin 8) (h : Fin 12) (s : Fin 512) (w : Fin 64) :
    val_main_v17 (F := Ideal) x0 x5 x6 (ix5 p b h s w) = proj x0 x5 x6 p b s (colOf h w) := by
  rw [val_main_v17_apply, val_main_v16_apply, join_v, val_main_v11_apply, val_main_v8_apply, val_main_v10_apply, val_main_v9_apply]
  unfold proj
  refine congr (congrArg _ (Finset.sum_congr rfl fun k _ => ?_)) ?_
  · exact congr (congrArg _ (congrArg x0 (funext fun a => by
      match a with
      | ⟨0, _⟩ => rfl
      | ⟨1, _⟩ => rfl
      | ⟨2, _⟩ => rfl
      | ⟨3, _⟩ => rfl))) (congrArg x5 (funext fun a => by
      match a with
      | ⟨0, _⟩ => rfl
      | ⟨1, _⟩ => rfl))
  · exact congrArg x6 (funext fun a => by
      match a with
      | ⟨0, _⟩ => rfl)

/-- The adjusted score of query s against key t in head h. -/
theorem score_apply (x0 : (⟨S4x8x512x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S8x512, .i32⟩ : BufTy).Contents (Elt Ideal)) (p : Fin 4) (b : Fin 8) (h : Fin 12) (s t : Fin 512) :
    val_main_v28 (F := Ideal) x0 x1 x2 x3 x4 x7 (ix5 p b h s t)
      = adjDiv (sitofp (F := Ideal) .f32 x7) (∑ w : Fin 64, proj x0 x1 x2 p b s (colOf h w) * proj x0 x3 x4 p b t (colOf h w)) b t := by
  rw [val_main_v28_apply, val_main_v20_apply, val_main_v18_apply, val_main_v19_apply, val_main_cst_apply, val_main_v27_apply,
    val_main_v26_apply, val_main_v25_apply, val_main_cst_1_apply, val_main_v24_apply, val_main_v23_apply, val_main_cst_0_apply,
    val_main_v22_apply, val_main_v21_apply]
  have e1 : ∀ k : Fin 64, lidx_main_v18 (ix5 p b h s t) k = ix5 p b h s k := fun k => by idx5
  have e2 : ∀ k : Fin 64, ridx_main_v18 (ix5 p b h s t) k = ix5 p b h t k := fun k => by idx5
  have e3 : idx_main_v22 (idx_main_v27 (ix5 p b h s t)) = ix2 b t := by idx2
  simp only [e1, e2, e3, q_apply, k_apply]
  rfl

theorem lift_key (hr : S4x8x12x512x512.Reduces [4] S4x8x12x512) (p : Fin 4) (b : Fin 8) (h : Fin 12) (s : Fin 512)
    (k : Fin (S4x8x12x512x512.size 4)) : hr.lift (ix4 p b h s) k = ix5 p b h s (⟨k.val, k.isLt⟩ : Fin 512) := by
  funext c; apply Fin.ext
  fin_cases c <;> rfl

/-- The largest adjusted score of query s over the keys. -/
theorem rowmax_apply (x0 : (⟨S4x8x512x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S8x512, .i32⟩ : BufTy).Contents (Elt Ideal)) (p : Fin 4) (b : Fin 8) (h : Fin 12) (s : Fin 512) :
    val_main_v31 (F := Ideal) x0 x1 x2 x3 x4 x7 (ix4 p b h s)
      = (Finset.univ : Finset (Fin 512)).fold max negInf (fun t => val_main_v28 (F := Ideal) x0 x1 x2 x3 x4 x7 (ix5 p b h s t)) := by
  have hr : S4x8x12x512x512.Reduces [4] S4x8x12x512 := by decide
  rw [val_main_v31_apply, val_main_v30_apply, val_main_cst_3_apply]
  unfold val_main_v29
  rw [Host.reduce_eq_fold_single FloatOps.maximumf _ _ reducesTo_S4x8x12x512x512_S4x8x12x512_d4 hr h_S_, val_main_cst_2_apply]
  show max negInf (Finset.fold max negInf (val_main_v28 (F := Ideal) x0 x1 x2 x3 x4 x7 ∘ hr.lift (ix4 p b h s)) (Finset.univ : Finset (Fin 512))) = _
  rw [max_negInf]
  exact congrArg (fun f => Finset.fold max negInf f (Finset.univ : Finset (Fin 512)))
    (funext fun k => congrArg (val_main_v28 (F := Ideal) x0 x1 x2 x3 x4 x7) (lift_key hr p b h s k))

/-- The softmax weight of key t for query s in head h. -/
theorem soft_apply (x0 : (⟨S4x8x512x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x7 : (⟨S8x512, .i32⟩ : BufTy).Contents (Elt Ideal)) (p : Fin 4) (b : Fin 8) (h : Fin 12) (s t : Fin 512) :
    val_main_v39 (F := Ideal) x0 x1 x2 x3 x4 x7 (ix5 p b h s t)
      = smax (fun t' => val_main_v28 (F := Ideal) x0 x1 x2 x3 x4 x7 (ix5 p b h s t')) t := by
  have hexp : ∀ t' : Fin 512, val_main_v35 (F := Ideal) x0 x1 x2 x3 x4 x7 (ix5 p b h s t')
      = Ideal.exp (val_main_v28 (F := Ideal) x0 x1 x2 x3 x4 x7 (ix5 p b h s t')
          - (Finset.univ : Finset (Fin 512)).fold max negInf (fun t'' => val_main_v28 (F := Ideal) x0 x1 x2 x3 x4 x7 (ix5 p b h s t''))) := fun t' => by
    have e : idx_main_v32 (idx_main_v33 (ix5 p b h s t')) = ix4 p b h s := by idx4
    rw [val_main_v35_apply, val_main_v34_apply, val_main_v33_apply, val_main_v32_apply, e, rowmax_apply]
    rfl
  have e : idx_main_v37 (idx_main_v38 (ix5 p b h s t)) = ix4 p b h s := by idx4
  have e2 : ∀ k : Fin 512, idx_main_v36 (ix4 p b h s) k = ix5 p b h s k := fun k => by idx5
  rw [val_main_v39_apply, val_main_v38_apply, val_main_v37_apply, e, val_main_v36_apply, val_main_cst_4_apply]
  simp only [e2, hexp]
  unfold smax
  show Ideal.div _ (Ideal.ofBits .f32 0x00000000#32 + _) = _
  rw [Ideal.ofBits_zero_f32, zero_add]

theorem idx_split (p : Fin 4) (b : Fin 8) (s : Fin 512) (e : Fin 768) :
    idx_main_v41 (idx_main_v42 (ix4 p b s e)) = ix5 p b (headOf e) s (laneOf e) := by
  funext a; apply Fin.ext
  have hp := p.isLt; have hb := b.isLt; have hs := s.isLt; have he := e.isLt
  match a with
  | ⟨0, _⟩ =>
    show (((p.val * 8 + b.val) * 512 + s.val) * 768 + e.val) / 3145728 = p.val
    omega
  | ⟨1, _⟩ =>
    show (((p.val * 8 + b.val) * 512 + s.val) * 768 + e.val) / 393216 % 8 = b.val
    omega
  | ⟨2, _⟩ =>
    show (((p.val * 8 + b.val) * 512 + s.val) * 768 + e.val) / 64 % 12 = e.val / 64
    omega
  | ⟨3, _⟩ =>
    show (((p.val * 8 + b.val) * 512 + s.val) * 768 + e.val) / 768 % 512 = s.val
    omega
  | ⟨4, _⟩ =>
    show (((p.val * 8 + b.val) * 512 + s.val) * 768 + e.val) % 64 = e.val % 64
    omega

/-- The reference's result is the specification with the dividing adjustment. -/
theorem ref_eq (x0 : (⟨S4x8x512x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal))  (x5 : (⟨S768x768, .f32⟩ : BufTy).Contents (Elt Ideal)) (x6 : (⟨S768, .f32⟩ : BufTy).Contents (Elt Ideal)) (x7 : (⟨S8x512, .i32⟩ : BufTy).Contents (Elt Ideal)) :
    val_main_v42 (F := Ideal) x0 x1 x2 x3 x4 x5 x6 x7 = attn (adjDiv (sitofp (F := Ideal) .f32 x7)) x0 x1 x2 x3 x4 x5 x6 := by
  funext i
  obtain ⟨p, b, s, e, rfl⟩ : ∃ (p : Fin 4) (b : Fin 8) (s : Fin 512) (e : Fin 768), i = ix4 p b s e := ⟨i 0, i 1, i 2, i 3, eq_ix4 i⟩
  rw [val_main_v42_apply, val_main_v41_apply, idx_split, val_main_v40_apply]
  unfold attn
  refine Finset.sum_congr rfl fun t _ => ?_
  have e1 : lidx_main_v40 (ix5 p b (headOf e) s (laneOf e)) t = ix5 p b (headOf e) s t := by idx5
  have e2 : ridx_main_v40 (ix5 p b (headOf e) s (laneOf e)) t = ix5 p b (headOf e) t (laneOf e) := by idx5
  rw [e1, e2, soft_apply, v_apply, colOf_split]
  refine congrArg (fun f => smax f t * proj x0 x5 x6 p b t e) (funext fun t' => ?_)
  rw [score_apply]
  rfl

end Cert.RefValue

end
-- ==== Proof.lean ====
/-
  Masked multi-head self-attention over f32[4, 8, 512, 768] (twelve heads of width 64), a pipelined kernel over the
  32 batch entries against the plain reference, equal on the extended reals.

  Both programs compute, at entry (p, b, s, e), the softmax-weighted sum over the keys t of the value projection at
  column e, the weights being the softmax over t of the adjusted inner products of the query projection at s with the
  key projection at t over the 64 columns of the head of e. The kernel multiplies the raw score by 1/8 and adds
  (m − 1) · 10000; the reference divides it by 8 and subtracts 10000 · (1 − m). On the extended reals dividing by the
  real 8 is multiplying by the real 1/8, and for a mask value m that is an integer read as a real the two mask terms are
  the same real number, so the two adjustments are one function and no finiteness of the inputs is needed.

  The kernel's result is read off its generated run block by block (each grid point writes the specification at its
  batch entry, the blocks tile the result); the reference's result is its generated run read one operation at a time.
-/
import proofs.«129219_j87170656239755_2_alg».proof.Defs
import proofs.«129219_j87170656239755_2_alg».proof.Proof.Gen.Kernel
import proofs.«129219_j87170656239755_2_alg».proof.Proof.Gen.Kernel.Skeleton
import proofs.«129219_j87170656239755_2_alg».proof.Proof.Gen.Kernel.Launch
import proofs.«129219_j87170656239755_2_alg».proof.Proof.Gen.Kernel.Points
import proofs.«129219_j87170656239755_2_alg».proof.Proof.Gen.Kernel.Frame
import proofs.«129219_j87170656239755_2_alg».proof.Proof.Gen.KernelIdeal
import proofs.«129219_j87170656239755_2_alg».proof.Proof.Gen.KernelIdeal.Skeleton
import proofs.«129219_j87170656239755_2_alg».proof.Proof.Gen.KernelIdeal.Launch
import proofs.«129219_j87170656239755_2_alg».proof.Proof.Gen.KernelIdeal.Points
import proofs.«129219_j87170656239755_2_alg».proof.Proof.Gen.KernelIdeal.Frame
import proofs.«129219_j87170656239755_2_alg».proof.Proof.Gen.ReferenceIdeal
import proofs.«129219_j87170656239755_2_alg».proof.Proof.Gen.Pre_finite_inputs
import proofs.«129219_j87170656239755_2_alg».proof.Proof.Gen.KernelIdeal.Value
import proofs.«129219_j87170656239755_2_alg».proof.Proof.Gen.ReferenceIdeal.Run
import proofs.«129219_j87170656239755_2_alg».proof.Proof.Gen.ReferenceIdeal.Read
import Idealize.ShloMosaic.Adequacy
import Idealize.ShloMosaic.Init

import proofs.«129219_j87170656239755_2_alg».proof.Proof.KernelValue
import proofs.«129219_j87170656239755_2_alg».proof.Proof.RefValue

noncomputable section

namespace Cert.Proof

open Idealize.ShloMosaic Idealize.ShloMosaic.TcCoe Idealize.SL.Sem Cert.MhaSpec Cert.Mha

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The mask read as floats is real at every entry: an integer read as a real. -/
theorem mask_real (x7 : (⟨Cert.KernelIdeal.S8x512, .i32⟩ : BufTy).Contents (Elt Ideal)) (b : Fin 8) (t : Fin 512) :
    ∃ z : ℝ, sitofp (F := Ideal) .f32 x7 (ValueIdx.ix2 b t) = (z : EReal) := ⟨_, rfl⟩

/-- Both runs end with the specification of the arguments: the kernel's with the multiplying adjustment, the
    reference's with the dividing one, and the two adjustments are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KValue.G m c, Cert.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.RefValue.ref_eq, (hagree c).1, (hagree c).2.1, (hagree c).2.2.1,
    (hagree c).2.2.2.1, (hagree c).2.2.2.2.1, (hagree c).2.2.2.2.2.1, (hagree c).2.2.2.2.2.2.1, (hagree c).2.2.2.2.2.2.2]
  show _ = Cert.KValue.G m c
  unfold Cert.KValue.G
  rw [adjMul_eq_adjDiv _ (mask_real _)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
